-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x1 : Shape := ⟨2, ![8000000, 1]⟩
abbrev S8000000x2 : Shape := ⟨2, ![8000000, 2]⟩
abbrev S1x2 : Shape := ⟨2, ![1, 2]⟩
abbrev S8000000 : Shape := ⟨1, ![8000000]⟩
abbrev S4x32 : Shape := ⟨2, ![4, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩

class Facts : Prop where
  bcast_S_S8000000x1 : S_.BroadcastsInDim S8000000x1 (![] : Fin 0 → Fin S8000000x1.rank)
  reducesTo_S8000000x1_S_d0_1 : S8000000x1.ReducesTo [0, 1] S_
  h_S_ : 0 < S_.numel
  bcast_S_S8000000x2 : S_.BroadcastsInDim S8000000x2 (![] : Fin 0 → Fin S8000000x2.rank)
  reducesTo_S8000000x2_S_d0_1 : S8000000x2.ReducesTo [0, 1] S_
  bcast_S_S1x2 : S_.BroadcastsInDim S1x2 (![] : Fin 0 → Fin S1x2.rank)
  reducesTo_S1x2_S_d0_1 : S1x2.ReducesTo [0, 1] S_
  bcast_S_S4x32 : S_.BroadcastsInDim S4x32 (![] : Fin 0 → Fin S4x32.rank)
  reducesTo_S4x32_S_d0_1 : S4x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S32 .f32) (main_arg9 : FVec F S32x2 .f32) (main_arg10 : FVec F S2 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x2 .f32 := Host.absf main_arg9
  let main_cst_14 : FVec F S_ .f32 := constant S_ .f32 0x7F800000#32
  let main_v40 : FVec F S32x2 .f32 := broadcastInDim S32x2 ![] bcast_S_S32x2 main_cst_14
  let main_v41 : IVec S32x2 1 := cmpf .olt main_v39 main_v40
  let main_c_15 : IVec S_ 1 := constantI S_ 1 1#1
  let main_v42 : IVec S_ 1 := (fun x v => Host.reduce IntOp.andi x v reducesTo_S32x2_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg5 : FVec F S4x32 .f32) (main_arg6 : FVec F S32 .f32) (main_arg7 : FVec F S32x32 .f32) (main_arg8 : FVec F S32 .f32) (main_arg9 : FVec F S32x2 .f32) (main_arg10 : FVec F S2 .f32) (main_v13 : IVec S_ 1) (main_v16 : IVec S1x2 1) : IVec S_ 1 :=
  let main_c_5 : IVec S_ 1 := constantI S_ 1 1#1
  let main_v17 : IVec S_ 1 := (fun x v => Host.reduce IntOp.andi x v reducesTo_S1x2_S_d0_1 h_S_) main_v16 main_c_5
  let main_v18 : IVec S_ 1 := andi main_v13 main_v17
  let main_v19 : FVec F S4x32 .f32 := Host.absf main_arg5
  let main_cst_6 : FVec F S_ .f32 := constant S_ .f32 0x7F800000#32
  let main_v20 : FVec F S4x32 .f32 := broadcastInDim S4x32 ![] bcast_S_S4x32 main_cst_6
  let main_v21 : IVec S4x32 1 := cmpf .olt main_v19 main_v20
  let main_c_7 : IVec S_ 1 := constantI S_ 1 1#1
  let main_v22 : IVec S_ 1 := (fun x v => Host.reduce IntOp.andi x v reducesTo_S4x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_arg9 main_arg10 main_v33

def fn {F : FTy → Type} [FloatOps F] (main_arg0 : FVec F S8000000x1 .f32) (main_arg1 : FVec F S8000000x1 .f32) (main_arg2 : FVec F S8000000x2 .f32) (main_arg3 : FVec F S1x2 .f32) (main_arg4 : IVec S8000000 32) (main_arg5 : FVec F S4x32 .f32) (main_arg6 : FVec F S32 .f32) (main_arg7 : FVec F S32x32 .f32) (main_arg8 : FVec F S32 .f32) (main_arg9 : FVec F S32x2 .f32) (main_arg10 : FVec F S2 .f32) : IVec S_ 1 :=
  let main_v0 : FVec F S8000000x1 .f32 := Host.absf main_arg0
  let main_cst : FVec F S_ .f32 := constant S_ .f32 0x7F800000#32
  let main_v1 : FVec F S8000000x1 .f32 := broadcastInDim S8000000x1 ![] bcast_S_S8000000x1 main_cst
  let main_v2 : IVec S8000000x1 1 := cmpf .olt main_v0 main_v1
  let main_c : IVec S_ 1 := constantI S_ 1 1#1
  let main_v3 : IVec S_ 1 := (fun x v => Host.reduce IntOp.andi x v reducesTo_S8000000x1_S_d0_1 h_S_) main_v2 main_c
  let main_v4 : FVec F S8000000x1 .f32 := Host.absf main_arg1
  let main_cst_0 : FVec F S_ .f32 := constant S_ .f32 0x7F800000#32
  let main_v5 : FVec F S8000000x1 .f32 := broadcastInDim S8000000x1 ![] bcast_S_S8000000x1 main_cst_0
  let main_v6 : IVec S8000000x1 1 := cmpf .olt main_v4 main_v5
  let main_c_1 : IVec S_ 1 := constantI S_ 1 1#1
  let main_v7 : IVec S_ 1 := (fun x v => Host.reduce IntOp.andi x v reducesTo_S8000000x1_S_d0_1 h_S_) main_v6 main_c_1
  let main_v8 : IVec S_ 1 := andi main_v3 main_v7
  let main_v9 : FVec F S8000000x2 .f32 := Host.absf main_arg2
  let main_cst_2 : FVec F S_ .f32 := constant S_ .f32 0x7F800000#32
  let main_v10 : FVec F S8000000x2 .f32 := broadcastInDim S8000000x2 ![] bcast_S_S8000000x2 main_cst_2
  let main_v11 : IVec S8000000x2 1 := cmpf .olt main_v9 main_v10
  let main_c_3 : IVec S_ 1 := constantI S_ 1 1#1
  let main_v12 : IVec S_ 1 := (fun x v => Host.reduce IntOp.andi x v reducesTo_S8000000x2_S_d0_1 h_S_) main_v11 main_c_3
  let main_v13 : IVec S_ 1 := andi main_v8 main_v12
  let main_v14 : FVec F S1x2 .f32 := Host.absf main_arg3
  let main_cst_4 : FVec F S_ .f32 := constant S_ .f32 0x7F800000#32
  let main_v15 : FVec F S1x2 .f32 := broadcastInDim S1x2 ![] bcast_S_S1x2 main_cst_4
  let main_v16 : IVec S1x2 1 := cmpf .olt main_v14 main_v15
  fn_part1 (F := F) main_arg5 main_arg6 main_arg7 main_arg8 main_arg9 main_arg10 main_v13 main_v16
-- ==== Kernel.lean ====
abbrev S8000000x1 : Shape := ⟨2, ![8000000, 1]⟩
abbrev S8000000x2 : Shape := ⟨2, ![8000000, 2]⟩
abbrev S1x2 : Shape := ⟨2, ![1, 2]⟩
abbrev S8000000 : Shape := ⟨1, ![8000000]⟩
abbrev S4x32 : Shape := ⟨2, ![4, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x8000000 : Shape := ⟨2, ![1, 8000000]⟩
abbrev S2x8000000 : Shape := ⟨2, ![2, 8000000]⟩
abbrev S32x4 : Shape := ⟨2, ![32, 4]⟩
abbrev S2x32 : Shape := ⟨2, ![2, 32]⟩
abbrev S32x1 : Shape := ⟨2, ![32, 1]⟩
abbrev S2x1 : Shape := ⟨2, ![2, 1]⟩
abbrev S1x64000 : Shape := ⟨2, ![1, 64000]⟩
abbrev S2x64000 : Shape := ⟨2, ![2, 64000]⟩
abbrev S1x32000 : Shape := ⟨2, ![1, 32000]⟩
abbrev S2x32000 : Shape := ⟨2, ![2, 32000]⟩
abbrev S32000 : Shape := ⟨1, ![32000]⟩
abbrev S4x32000 : Shape := ⟨2, ![4, 32000]⟩
abbrev S32x32000 : Shape := ⟨2, ![32, 32000]⟩

abbrev nBuf : Space → Nat
  | .hbm => 25
  | .vmem => 14
  | .smem => 0
  | _ => 0

abbrev bufTy : (tb : Table) → Fin (tcTables nBuf tb) → BufTy
  | .hbm, ⟨0, _⟩ => ⟨S8000000x1, .f32⟩
  | .hbm, ⟨1, _⟩ => ⟨S8000000x1, .f32⟩
  | .hbm, ⟨2, _⟩ => ⟨S8000000x2, .f32⟩
  | .hbm, ⟨3, _⟩ => ⟨S1x2, .f32⟩
  | .hbm, ⟨4, _⟩ => ⟨S8000000, .i32⟩
  | .hbm, ⟨5, _⟩ => ⟨S4x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x2, .f32⟩
  | .hbm, ⟨10, _⟩ => ⟨S2, .f32⟩
  | .hbm, ⟨11, _⟩ => ⟨S1x8000000, .f32⟩
  | .hbm, ⟨12, _⟩ => ⟨S1x8000000, .f32⟩
  | .hbm, ⟨13, _⟩ => ⟨S2x8000000, .f32⟩
  | .hbm, ⟨14, _⟩ => ⟨S32x4, .f32⟩
  | .hbm, ⟨15, _⟩ => ⟨S32x4, .bf16⟩
  | .hbm, ⟨16, _⟩ => ⟨S32x32, .f32⟩
  | .hbm, ⟨17, _⟩ => ⟨S32x32, .bf16⟩
  | .hbm, ⟨18, _⟩ => ⟨S2x32, .f32⟩
  | .hbm, ⟨19, _⟩ => ⟨S2x32, .bf16⟩
  | .hbm, ⟨20, _⟩ => ⟨S32x1, .f32⟩
  | .hbm, ⟨21, _⟩ => ⟨S32x1, .f32⟩
  | .hbm, ⟨22, _⟩ => ⟨S2x1, .f32⟩
  | .hbm, ⟨23, _⟩ => ⟨S2x8000000, .f32⟩
  | .hbm, ⟨24, _⟩ => ⟨S8000000x2, .f32⟩
  | .local _ .vmem, ⟨0, _⟩ => ⟨S1x64000, .f32⟩
  | .local _ .vmem, ⟨1, _⟩ => ⟨S1x64000, .f32⟩
  | .local _ .vmem, ⟨2, _⟩ => ⟨S1x64000, .f32⟩
  | .local _ .vmem, ⟨3, _⟩ => ⟨S1x64000, .f32⟩
  | .local _ .vmem, ⟨4, _⟩ => ⟨S2x64000, .f32⟩
  | .local _ .vmem, ⟨5, _⟩ => ⟨S2x64000, .f32⟩
  | .local _ .vmem, ⟨6, _⟩ => ⟨S32x4, .bf16⟩
  | .local _ .vmem, ⟨7, _⟩ => ⟨S32x1, .f32⟩
  | .local _ .vmem, ⟨8, _⟩ => ⟨S32x32, .bf16⟩
  | .local _ .vmem, ⟨9, _⟩ => ⟨S32x1, .f32⟩
  | .local _ .vmem, ⟨10, _⟩ => ⟨S2x32, .bf16⟩
  | .local _ .vmem, ⟨11, _⟩ => ⟨S2x1, .f32⟩
  | .local _ .vmem, ⟨12, _⟩ => ⟨S2x64000, .f32⟩
  | .local _ .vmem, ⟨13, _⟩ => ⟨S2x64000, .f32⟩
  | _, _ => ⟨S8000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![125], ![false]⟩

def k0_mult1 : BitVec 32 :=
  let c0_i32 : BitVec 32 := 0#32
  let c32000_i32 : BitVec 32 := 32000#32
  let v12 : BitVec 32 := Scalar.muli c0_i32 c32000_i32
  v12
def k0_off1 (c0_i32 : BitVec 32) : Fin 2 → Nat :=
  let c0_11 : Index := 0#32
  let c32000_i32 : BitVec 32 := 32000#32
  let v12 : BitVec 32 := Scalar.muli c0_i32 c32000_i32
  let v13 : BitVec 32 := v12
  let v14 : Index := Scalar.indexCast v13
  ![0, v14.toNat]
def k0_off2 (c0_i32 : BitVec 32) : Fin 2 → Nat :=
  let c0_13 : Index := 0#32
  let c32000_i32 : BitVec 32 := 32000#32
  let v12 : BitVec 32 := Scalar.muli c0_i32 c32000_i32
  let v13 : BitVec 32 := v12
  let v20 : Index := Scalar.indexCast v13
  ![0, v20.toNat]
def k0_mult2 : BitVec 32 :=
  let c1_i32 : BitVec 32 := 1#32
  let c32000_i32_20 : BitVec 32 := 32000#32
  let v52 : BitVec 32 := Scalar.muli c1_i32 c32000_i32_20
  v52
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x64000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x4 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x64000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S8000000x1_S1x8000000 : S8000000x1.ShapeCasts S1x8000000
  transposes_S8000000x2_S2x8000000_1_0 : S8000000x2.Transposes [1, 0] S2x8000000
  transposes_S4x32_S32x4_1_0 : S4x32.Transposes [1, 0] S32x4
  bitsLt_bf16_f32 : FTy.bits .bf16 < FTy.bits .f32
  transposes_S32x32_S32x32_1_0 : S32x32.Transposes [1, 0] S32x32
  transposes_S32x2_S2x32_1_0 : S32x2.Transposes [1, 0] S2x32
  shapeCasts_S32_S32x1 : S32.ShapeCasts S32x1
  shapeCasts_S2_S2x1 : S2.ShapeCasts S2x1
  inb_S32x4_S32x4_0_0 : ∀ a, (![0, 0] : Fin 2 → Nat) a + S32x4.size a ≤ S32x4.size a
  h_S32x4 : 0 < S32x4.numel
  shapeCasts_S32x4_S32x4 : S32x4.ShapeCasts S32x4
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S2x32_S2x32_0_0 : ∀ a, (![0, 0] : Fin 2 → Nat) a + S2x32.size a ≤ S2x32.size a
  h_S2x32 : 0 < S2x32.numel
  shapeCasts_S2x32_S2x32 : S2x32.ShapeCasts S2x32
  inb_S2x1_S2x1_0_0 : ∀ a, (![0, 0] : Fin 2 → Nat) a + S2x1.size a ≤ S2x1.size a
  h_S2x1 : 0 < S2x1.numel
  shapeCasts_S2x1_S2x1 : S2x1.ShapeCasts S2x1
  h_S1x32000 : 0 < S1x32000.numel
  shapeCasts_S1x32000_S1x32000 : S1x32000.ShapeCasts S1x32000
  h_S2x32000 : 0 < S2x32000.numel
  shapeCasts_S2x32000_S2x32000 : S2x32000.ShapeCasts S2x32000
  reduces_S2x32000_S32000 : S2x32000.Reduces [0] S32000
  shapeCasts_S32000_S1x32000 : S32000.ShapeCasts S1x32000
  broadcasts_S1x32000_S2x32000 : S1x32000.Broadcasts S2x32000
  concatenates_S1x32000_S2x32000_S1x32000_S4x32000_d0 : Shape.Concatenates [S1x32000, S2x32000, S1x32000] S4x32000 0
  broadcasts_S32x1_S32x32000 : S32x1.Broadcasts S32x32000
  broadcasts_S2x1_S2x32000 : S2x1.Broadcasts S2x32000
  transposes_S2x8000000_S8000000x2_1_0 : S2x8000000.Transposes [1, 0] S8000000x2
  dot_S32x4_S4x32000_S32x32000_1_0_0_1_n_n_wf : DotDims.WF S32x4 S4x32000 S32x32000 [1] [0] [0] [1] [] []
  dot_S32x32_S32x32000_S32x32000_1_0_0_1_n_n_wf : DotDims.WF S32x32 S32x32000 S32x32000 [1] [0] [0] [1] [] []
  dot_S2x32_S32x32000_S2x32000_1_0_0_1_n_n_wf : DotDims.WF S2x32 S32x32000 S2x32000 [1] [0] [0] [1] [] []
  hrank0 : 0 < grid0.rank
  k0_mult1_dvd : 128 ∣ k0_mult1.toNat
  k0_off1_inb : ∀ (r : Fin 2), ∀ a, (k0_off1 (BitVec.ofNat 32 r.val)) a + S1x32000.size a ≤ S1x64000.size a
  k0_off2_inb : ∀ (r : Fin 2), ∀ a, (k0_off2 (BitVec.ofNat 32 r.val)) a + S2x32000.size a ≤ S2x64000.size a
  k0_mult2_dvd : 128 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64000.size a ≤ S1x8000000.size a
  hwx0_0 : ∀ i : grid0.Coords, EltTy.bits .f32 = 32 ∨ (Rect.block (s := S1x8000000) S1x64000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64000.size a ≤ S1x8000000.size a
  hwx0_1 : ∀ i : grid0.Coords, EltTy.bits .f32 = 32 ∨ (Rect.block (s := S1x8000000) S1x64000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x64000.size a ≤ S2x8000000.size a
  hwx0_2 : ∀ i : grid0.Coords, EltTy.bits .f32 = 32 ∨ (Rect.block (s := S2x8000000) S2x64000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x4.size a ≤ S32x4.size a
  hwx0_3 : ∀ i : grid0.Coords, EltTy.bits .bf16 = 32 ∨ (Rect.block (s := S32x4) S32x4.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .bf16 = 32 ∨ (Rect.block (s := S32x32) S32x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S32x1.size a
  hwx0_6 : ∀ i : grid0.Coords, EltTy.bits .f32 = 32 ∨ (Rect.block (s := S32x1) S32x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x32.size a ≤ S2x32.size a
  hwx0_7 : ∀ i : grid0.Coords, EltTy.bits .bf16 = 32 ∨ (Rect.block (s := S2x32) S2x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x1.size a ≤ S2x1.size a
  hwx0_8 : ∀ i : grid0.Coords, EltTy.bits .f32 = 32 ∨ (Rect.block (s := S2x1) S2x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x64000.size a ≤ S2x8000000.size a
  hwx0_9 : ∀ i : grid0.Coords, EltTy.bits .f32 = 32 ∨ (Rect.block (s := S2x8000000) S2x64000.size (cc0_transform_9 i) (hinb0_9 i)).WholeWords (EltTy.packing .f32)

variable [Facts₀]

def dot_S32x4_S4x32000_S32x32000_1_0_0_1_n_n : DotDims S32x4 S4x32000 S32x32000 where
  lhsContracting := [1]
  rhsContracting := [0]
  lhsNonContracting := [0]
  rhsNonContracting := [1]
  lhsBatch := []
  rhsBatch := []
  wf := dot_S32x4_S4x32000_S32x32000_1_0_0_1_n_n_wf
def dot_S32x32_S32x32000_S32x32000_1_0_0_1_n_n : DotDims S32x32 S32x32000 S32x32000 where
  lhsContracting := [1]
  rhsContracting := [0]
  lhsNonContracting := [0]
  rhsNonContracting := [1]
  lhsBatch := []
  rhsBatch := []
  wf := dot_S32x32_S32x32000_S32x32000_1_0_0_1_n_n_wf
def dot_S2x32_S32x32000_S2x32000_1_0_0_1_n_n : DotDims S2x32 S32x32000 S2x32000 where
  lhsContracting := [1]
  rhsContracting := [0]
  lhsNonContracting := [0]
  rhsNonContracting := [1]
  lhsBatch := []
  rhsBatch := []
  wf := dot_S2x32_S32x32000_S2x32000_1_0_0_1_n_n_wf

abbrev win0_0 : Pipeline.Window sig grid0 :=
  Pipeline.Window.ofSpec (Memref.whole main_v0) S1x64000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x64000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S32x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S32x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S2x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S2x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S2x64000.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8000000x1 : Shape := ⟨2, ![8000000, 1]⟩
abbrev S8000000x2 : Shape := ⟨2, ![8000000, 2]⟩
abbrev S1x2 : Shape := ⟨2, ![1, 2]⟩
abbrev S8000000 : Shape := ⟨1, ![8000000]⟩
abbrev S4x32 : Shape := ⟨2, ![4, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩
abbrev S8000000x4 : Shape := ⟨2, ![8000000, 4]⟩
abbrev S8000000x32 : Shape := ⟨2, ![8000000, 32]⟩
abbrev S1x32 : Shape := ⟨2, ![1, 32]⟩

abbrev nBuf : Space → Nat
  | .hbm => 41
  | .vmem => 0
  | .smem => 0
  | _ => 0

abbrev bufTy : (tb : Table) → Fin (tcTables nBuf tb) → BufTy
  | .hbm, ⟨0, _⟩ => ⟨S8000000x1, .f32⟩
  | .hbm, ⟨1, _⟩ => ⟨S8000000x1, .f32⟩
  | .hbm, ⟨2, _⟩ => ⟨S8000000x2, .f32⟩
  | .hbm, ⟨3, _⟩ => ⟨S1x2, .f32⟩
  | .hbm, ⟨4, _⟩ => ⟨S8000000, .i32⟩
  | .hbm, ⟨5, _⟩ => ⟨S4x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x2, .f32⟩
  | .hbm, ⟨10, _⟩ => ⟨S2, .f32⟩
  | .hbm, ⟨11, _⟩ => ⟨S8000000x2, .f32⟩
  | .hbm, ⟨12, _⟩ => ⟨S_, .f32⟩
  | .hbm, ⟨13, _⟩ => ⟨S8000000, .f32⟩
  | .hbm, ⟨14, _⟩ => ⟨S8000000x1, .f32⟩
  | .hbm, ⟨15, _⟩ => ⟨S8000000x1, .f32⟩
  | .hbm, ⟨16, _⟩ => ⟨S8000000x1, .f32⟩
  | .hbm, ⟨17, _⟩ => ⟨S8000000x1, .f32⟩
  | .hbm, ⟨18, _⟩ => ⟨S8000000x1, .f32⟩
  | .hbm, ⟨19, _⟩ => ⟨S8000000x2, .f32⟩
  | .hbm, ⟨20, _⟩ => ⟨S8000000x2, .f32⟩
  | .hbm, ⟨21, _⟩ => ⟨S8000000x4, .f32⟩
  | .hbm, ⟨22, _⟩ => ⟨S8000000x32, .f32⟩
  | .hbm, ⟨23, _⟩ => ⟨S1x32, .f32⟩
  | .hbm, ⟨24, _⟩ => ⟨S8000000x32, .f32⟩
  | .hbm, ⟨25, _⟩ => ⟨S8000000x32, .f32⟩
  | .hbm, ⟨26, _⟩ => ⟨S_, .f32⟩
  | .hbm, ⟨27, _⟩ => ⟨S8000000x32, .f32⟩
  | .hbm, ⟨28, _⟩ => ⟨S8000000x32, .f32⟩
  | .hbm, ⟨29, _⟩ => ⟨S8000000x32, .f32⟩
  | .hbm, ⟨30, _⟩ => ⟨S1x32, .f32⟩
  | .hbm, ⟨31, _⟩ => ⟨S8000000x32, .f32⟩
  | .hbm, ⟨32, _⟩ => ⟨S8000000x32, .f32⟩
  | .hbm, ⟨33, _⟩ => ⟨S_, .f32⟩
  | .hbm, ⟨34, _⟩ => ⟨S8000000x32, .f32⟩
  | .hbm, ⟨35, _⟩ => ⟨S8000000x32, .f32⟩
  | .hbm, ⟨36, _⟩ => ⟨S8000000x2, .f32⟩
  | .hbm, ⟨37, _⟩ => ⟨S1x2, .f32⟩
  | .hbm, ⟨38, _⟩ => ⟨S8000000x2, .f32⟩
  | .hbm, ⟨39, _⟩ => ⟨S8000000x2, .f32⟩
  | .hbm, ⟨40, _⟩ => ⟨S8000000x2, .f32⟩
  | _, _ => ⟨S8000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_cst : Ref sig .tc := ⟨.hbm, 33, rfl⟩
abbrev main_call1_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  reducesTo_S8000000x2_S8000000_d1 : S8000000x2.ReducesTo [1] S8000000
  h_S_ : 0 < S_.numel
  bcast_S8000000_S8000000x1_0 : S8000000.BroadcastsInDim S8000000x1 (![0] : Fin 1 → Fin S8000000x1.rank)
  bcast_S8000000x1_S8000000x2_0_1 : S8000000x1.BroadcastsInDim S8000000x2 (![0, 1] : Fin 2 → Fin S8000000x2.rank)
  concatenates_S8000000x1_S8000000x2_S8000000x1_S8000000x4_d1 : Shape.Concatenates [S8000000x1, S8000000x2, S8000000x1] S8000000x4 1
  bcast_S32_S1x32_1 : S32.BroadcastsInDim S1x32 (![1] : Fin 1 → Fin S1x32.rank)
  bcast_S1x32_S8000000x32_0_1 : S1x32.BroadcastsInDim S8000000x32 (![0, 1] : Fin 2 → Fin S8000000x32.rank)
  bcast_S_S8000000x32 : S_.BroadcastsInDim S8000000x32 (![] : Fin 0 → Fin S8000000x32.rank)
  bcast_S2_S1x2_1 : S2.BroadcastsInDim S1x2 (![1] : Fin 1 → Fin S1x2.rank)
  bcast_S1x2_S8000000x2_0_1 : S1x2.BroadcastsInDim S8000000x2 (![0, 1] : Fin 2 → Fin S8000000x2.rank)
  dot_S8000000x4_S4x32_S8000000x32_1_0_0_1_n_n_wf : DotDims.WF S8000000x4 S4x32 S8000000x32 [1] [0] [0] [1] [] []
  dot_S8000000x32_S32x32_S8000000x32_1_0_0_1_n_n_wf : DotDims.WF S8000000x32 S32x32 S8000000x32 [1] [0] [0] [1] [] []
  dot_S8000000x32_S32x2_S8000000x2_1_0_0_1_n_n_wf : DotDims.WF S8000000x32 S32x2 S8000000x2 [1] [0] [0] [1] [] []

variable [Facts₀]

def dot_S8000000x4_S4x32_S8000000x32_1_0_0_1_n_n : DotDims S8000000x4 S4x32 S8000000x32 where
  lhsContracting := [1]
  rhsContracting := [0]
  lhsNonContracting := [0]
  rhsNonContracting := [1]
  lhsBatch := []
  rhsBatch := []
  wf := dot_S8000000x4_S4x32_S8000000x32_1_0_0_1_n_n_wf
def dot_S8000000x32_S32x32_S8000000x32_1_0_0_1_n_n : DotDims S8000000x32 S32x32 S8000000x32 where
  lhsContracting := [1]
  rhsContracting := [0]
  lhsNonContracting := [0]
  rhsNonContracting := [1]
  lhsBatch := []
  rhsBatch := []
  wf := dot_S8000000x32_S32x32_S8000000x32_1_0_0_1_n_n_wf
def dot_S8000000x32_S32x2_S8000000x2_1_0_0_1_n_n : DotDims S8000000x32 S32x2 S8000000x2 where
  lhsContracting := [1]
  rhsContracting := [0]
  lhsNonContracting := [0]
  rhsNonContracting := [1]
  lhsBatch := []
  rhsBatch := []
  wf := dot_S8000000x32_S32x2_S8000000x2_1_0_0_1_n_n_wf

class Facts : Prop extends Facts₀ where

variable [Facts]
-- ==== Proof.EdgeSpec.lean ====
/-
  The edge update as ONE function of an edge's own numbers, on the extended reals.

  For an edge with endpoint values `s`, `d` and attribute pair `a = (a₀, a₁)`:
    diff = s - d,   n = √(a₀² + a₁²),   scale = diff / (n · n),
    features = (diff, a₀, a₁, n),
    h¹ = relu (features · W¹ + b¹),  h² = relu (h¹ · W² + b²),  coeff = h² · W³ + b³,
    result_j = (scale · a_j) · coeff_j        (j = 0, 1).
  Every sum is a finite sum over the contracted coordinate, every product is written `x_k · W_{k,o}` (input first,
  weight second); `relu x = max x 0` with the zero kept as the float word both programs print.
  Nothing here mentions a program: the two programs' results are each shown to be this function of the same
  argument entries, edge by edge.
-/
import Idealize.ShloMosaic.PureOps.Ideal.Laws
import Idealize.ShloMosaic.Lib.ValueIdx

noncomputable section

namespace Cert.EdgeSpec

open Idealize.ShloMosaic Idealize.ShloMosaic.ValueIdx

/-- The float word of `+0.0` read as an extended real (it is `0`; the word is kept, since both programs print it). -/
abbrev zeroWord : EReal := Ideal.ofBits .f32 0x00000000#32

/-- `max x 0`. -/
def relu (x : EReal) : EReal := max x zeroWord

/-- The attribute pair's Euclidean norm: the root of the sum of the two squares. -/
def nrm (a : Fin 2 → EReal) : EReal := Ideal.sqrt (∑ k : Fin 2, a k * a k)

/-- The four features of an edge: the endpoint difference, the two attributes, the attributes' norm. -/
def feat (df : EReal) (a : Fin 2 → EReal) : Fin 4 → EReal := ![df, a 0, a 1, nrm a]

/-- One affine layer read at output `o`: `∑ₖ xₖ · W_{k,o} + b_o`. -/
def layer {K N : ℕ} (x : Fin K → EReal) (W : Fin K → Fin N → EReal) (b : Fin N → EReal) (o : Fin N) : EReal :=
  (∑ k : Fin K, x k * W k o) + b o

/-- The edge update's entry `j` for one edge. -/
def edge (s d : EReal) (a : Fin 2 → EReal) (W1 : Fin 4 → Fin 32 → EReal) (b1 : Fin 32 → EReal)
    (W2 : Fin 32 → Fin 32 → EReal) (b2 : Fin 32 → EReal) (W3 : Fin 32 → Fin 2 → EReal) (b3 : Fin 2 → EReal)
    (j : Fin 2) : EReal :=
  (Ideal.div (s - d) (nrm a * nrm a) * a j)
    * layer (fun k => relu (layer (fun k' => relu (layer (feat (s - d) a) W1 b1 k')) W2 b2 k)) W3 b3 j

/-- THE RESULT ARRAY, `[8000000, 2]`, as one function of the argument arrays: row `e` is the edge update of edge `e`'s
    own entries — endpoint values `A0 (e, 0)`, `A1 (e, 0)`, attributes `A2 (e, ·)` — under the shared weights, read
    `W (k, o)` (input coordinate first), and biases. -/
def result (A0 A1 : (⟨2, ![8000000, 1]⟩ : Shape).Idx → EReal) (A2 : (⟨2, ![8000000, 2]⟩ : Shape).Idx → EReal)
    (W1 : (⟨2, ![4, 32]⟩ : Shape).Idx → EReal) (B1 : (⟨1, ![32]⟩ : Shape).Idx → EReal)
    (W2 : (⟨2, ![32, 32]⟩ : Shape).Idx → EReal) (B2 : (⟨1, ![32]⟩ : Shape).Idx → EReal)
    (W3 : (⟨2, ![32, 2]⟩ : Shape).Idx → EReal) (B3 : (⟨1, ![2]⟩ : Shape).Idx → EReal) :
    (⟨2, ![8000000, 2]⟩ : Shape).Idx → EReal := fun i =>
  edge (A0 (ix2 ⟨(i 0).val, (i 0).isLt⟩ 0)) (A1 (ix2 ⟨(i 0).val, (i 0).isLt⟩ 0)) (fun k => A2 (ix2 ⟨(i 0).val, (i 0).isLt⟩ k))
    (fun k o => W1 (ix2 k o)) (fun o => B1 (ix1 o)) (fun k o => W2 (ix2 k o)) (fun o => B2 (ix1 o))
    (fun k o => W3 (ix2 k o)) (fun o => B3 (ix1 o)) ⟨(i 1).val, (i 1).isLt⟩

/-- The result array at row `e`, column `j`. -/
theorem result_apply (A0 A1 : (⟨2, ![8000000, 1]⟩ : Shape).Idx → EReal) (A2 : (⟨2, ![8000000, 2]⟩ : Shape).Idx → EReal)
    (W1 : (⟨2, ![4, 32]⟩ : Shape).Idx → EReal) (B1 : (⟨1, ![32]⟩ : Shape).Idx → EReal)
    (W2 : (⟨2, ![32, 32]⟩ : Shape).Idx → EReal) (B2 : (⟨1, ![32]⟩ : Shape).Idx → EReal)
    (W3 : (⟨2, ![32, 2]⟩ : Shape).Idx → EReal) (B3 : (⟨1, ![2]⟩ : Shape).Idx → EReal) (e : Fin 8000000) (j : Fin 2) :
    result A0 A1 A2 W1 B1 W2 B2 W3 B3 (ix2 e j)
      = edge (A0 (ix2 e 0)) (A1 (ix2 e 0)) (fun k => A2 (ix2 e k)) (fun k o => W1 (ix2 k o)) (fun o => B1 (ix1 o))
          (fun k o => W2 (ix2 k o)) (fun o => B2 (ix1 o)) (fun k o => W3 (ix2 k o)) (fun o => B3 (ix1 o)) j := rfl

end Cert.EdgeSpec

end
-- ==== Proof.LibPlainDot.lean ====
/-
  A plain matrix product read at an index, at the extended reals.

  For a rank-2 product `[M, K] · [K, N] → [M, N]` (one contracted axis: the left operand's columns against the right
  operand's rows, no batch axis) accumulated into the zero block, the entry at `(p, e)` is the finite sum over the
  contracted coordinate `k` of `lhs (p, k) · rhs (k, e)`. The product's dimension record enters only through four
  coordinate facts about its operand index maps (each is a one-line computation for a literal record), so the lemma
  serves any such record at any extents.
-/
import Idealize.ShloMosaic.Lib.ValueIdx
import Idealize.ShloMosaic.PureOps.Ideal.Laws

noncomputable section

namespace Cert.LibPlainDot

open Idealize.ShloMosaic Idealize.ShloMosaic.ValueIdx

/-- `[M, K] · [K, N]` into the zero accumulator, at `(p, e)`: `∑ₖ lhs (p, k) · rhs (k, e)`. The hypotheses say that the
    record contracts ONE axis of extent `K`, that the left operand is read at (output row, contracted coordinate) and the
    right operand at (contracted coordinate, output column). -/
theorem matmul_zero_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    matmul D none lhs rhs (constant (F := Ideal) ⟨2, ![M, N]⟩ .f32 0x00000000#32) (ix2 p e)
      = ∑ k : Fin K, lhs (ix2 p k) * rhs (ix2 k e) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibPlainDot

end
-- ==== Proof.LibColumn.lean ====
/-
  Two layout operations read at an index, for a sum kept as a column: a vector of `a` entries cast to an
  `a × 1` column reads, at (i, 0), the vector at `i`; and an `a × 1` column broadcast to `a × b` reads, at (p, c), the
  column's entry in row `p`, whatever the lane `c`. Both are stated over literal rank-2 indices built from their
  coordinates, so that they rewrite under a payload's other operations.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.EdgeBody.lean ====
/-
  The kernel's arithmetic for one half-tile, read at an index, at the extended reals.

  The body works on tiles laid out (feature, edge): a row per feature, a lane per edge. At lane `l` of a half-tile it
  forms, from the endpoint rows `s`, `d` (one row each) and the attribute rows `a` (two rows), exactly the edge update of
  `EdgeSpec.edge` for that lane's edge: the three matrix products are transposed-weight products
  `∑ₖ Wᵀ(o, k) · x(k, l)`, which equal the specification's `∑ₖ x_k · W(k, o)` term by term by commutativity of the product;
  the feature tile is the stack (diff; a₀; a₁; norm); the biases are columns broadcast along the lanes; the rounding
  to a narrower format between the layers is the identity at the extended reals.
-/
import proofs.«153126_j63668595196291_2_alg».proof.Proof.Gen.KernelIdeal.Skeleton
import proofs.«153126_j63668595196291_2_alg».proof.Proof.EdgeSpec
import proofs.«153126_j63668595196291_2_alg».proof.Proof.LibPlainDot
import proofs.«153126_j63668595196291_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeBody

open Idealize.ShloMosaic Idealize.ShloMosaic.ValueIdx Cert.KernelIdeal Cert.KernelIdeal.Gen Cert.EdgeSpec

/-! ## The three products, each into the zero block -/

/-- First layer: `[32, 4] · [4, 32000]` at `(o, l)`. -/
theorem dot1_apply (W : FVec Ideal S32x4 .bf16) (X : FVec Ideal S4x32000 .bf16) (o : Fin 32) (l : Fin 32000) :
    matmul dot_S32x4_S4x32000_S32x32000_1_0_0_1_n_n none W X (constant (F := Ideal) S32x32000 .f32 0x00000000#32) (ix2 o l)
      = ∑ k : Fin 4, W (ix2 o k) * X (ix2 k l) :=
  Cert.LibPlainDot.matmul_zero_apply dot_S32x4_S4x32000_S32x32000_1_0_0_1_n_n rfl rfl
    (fun i q => by
      unfold DotDims.lhsIdx
      rw [dif_neg (show ¬(0 : Fin S32x4.rank) ∈ dot_S32x4_S4x32000_S32x32000_1_0_0_1_n_n.lhsBatch by decide), dif_pos (show (0 : Fin S32x4.rank) ∈ dot_S32x4_S4x32000_S32x32000_1_0_0_1_n_n.lhsNonContracting by decide)]
      rfl)
    (fun i q => dot_S32x4_S4x32000_S32x32000_1_0_0_1_n_n.lhsIdx_val_of_single rfl i q)
    (fun i q => dot_S32x4_S4x32000_S32x32000_1_0_0_1_n_n.rhsIdx_val_of_single rfl i q)
    (fun i q => by
      unfold DotDims.rhsIdx
      rw [dif_neg (show ¬(1 : Fin S4x32000.rank) ∈ dot_S32x4_S4x32000_S32x32000_1_0_0_1_n_n.rhsBatch by decide), dif_pos (show (1 : Fin S4x32000.rank) ∈ dot_S32x4_S4x32000_S32x32000_1_0_0_1_n_n.rhsNonContracting by decide)]
      rfl)
    W X o l

/-- Second layer: `[32, 32] · [32, 32000]` at `(o, l)`. -/
theorem dot2_apply (W : FVec Ideal S32x32 .bf16) (X : FVec Ideal S32x32000 .bf16) (o : Fin 32) (l : Fin 32000) :
    matmul dot_S32x32_S32x32000_S32x32000_1_0_0_1_n_n none W X (constant (F := Ideal) S32x32000 .f32 0x00000000#32) (ix2 o l)
      = ∑ k : Fin 32, W (ix2 o k) * X (ix2 k l) :=
  Cert.LibPlainDot.matmul_zero_apply dot_S32x32_S32x32000_S32x32000_1_0_0_1_n_n rfl rfl
    (fun i q => by
      unfold DotDims.lhsIdx
      rw [dif_neg (show ¬(0 : Fin S32x32.rank) ∈ dot_S32x32_S32x32000_S32x32000_1_0_0_1_n_n.lhsBatch by decide), dif_pos (show (0 : Fin S32x32.rank) ∈ dot_S32x32_S32x32000_S32x32000_1_0_0_1_n_n.lhsNonContracting by decide)]
      rfl)
    (fun i q => dot_S32x32_S32x32000_S32x32000_1_0_0_1_n_n.lhsIdx_val_of_single rfl i q)
    (fun i q => dot_S32x32_S32x32000_S32x32000_1_0_0_1_n_n.rhsIdx_val_of_single rfl i q)
    (fun i q => by
      unfold DotDims.rhsIdx
      rw [dif_neg (show ¬(1 : Fin S32x32000.rank) ∈ dot_S32x32_S32x32000_S32x32000_1_0_0_1_n_n.rhsBatch by decide), dif_pos (show (1 : Fin S32x32000.rank) ∈ dot_S32x32_S32x32000_S32x32000_1_0_0_1_n_n.rhsNonContracting by decide)]
      rfl)
    W X o l

/-- Third layer: `[2, 32] · [32, 32000]` at `(j, l)`. -/
theorem dot3_apply (W : FVec Ideal S2x32 .bf16) (X : FVec Ideal S32x32000 .bf16) (j : Fin 2) (l : Fin 32000) :
    matmul dot_S2x32_S32x32000_S2x32000_1_0_0_1_n_n none W X (constant (F := Ideal) S2x32000 .f32 0x00000000#32) (ix2 j l)
      = ∑ k : Fin 32, W (ix2 j k) * X (ix2 k l) :=
  Cert.LibPlainDot.matmul_zero_apply dot_S2x32_S32x32000_S2x32000_1_0_0_1_n_n rfl rfl
    (fun i q => by
      unfold DotDims.lhsIdx
      rw [dif_neg (show ¬(0 : Fin S2x32.rank) ∈ dot_S2x32_S32x32000_S2x32000_1_0_0_1_n_n.lhsBatch by decide), dif_pos (show (0 : Fin S2x32.rank) ∈ dot_S2x32_S32x32000_S2x32000_1_0_0_1_n_n.lhsNonContracting by decide)]
      rfl)
    (fun i q => dot_S2x32_S32x32000_S2x32000_1_0_0_1_n_n.lhsIdx_val_of_single rfl i q)
    (fun i q => dot_S2x32_S32x32000_S2x32000_1_0_0_1_n_n.rhsIdx_val_of_single rfl i q)
    (fun i q => by
      unfold DotDims.rhsIdx
      rw [dif_neg (show ¬(1 : Fin S32x32000.rank) ∈ dot_S2x32_S32x32000_S2x32000_1_0_0_1_n_n.rhsBatch by decide), dif_pos (show (1 : Fin S32x32000.rank) ∈ dot_S2x32_S32x32000_S2x32000_1_0_0_1_n_n.rhsNonContracting by decide)]
      rfl)
    W X j l

/-! ## The half-tile's values, named after what they are -/

/-- The zero tile the two relu steps compare against. -/
abbrev zTile : FVec Ideal S32x32000 .f32 := broadcast S32x32000 (Scalar.ofBits .f32 0x00000000#32 : Ideal .f32)

/-- The endpoint difference, one row. -/
def dv (s d : FVec Ideal S1x32000 .f32) : FVec Ideal S1x32000 .f32 := subf s d

/-- The sum over the two attribute rows of the squares, kept as one row. -/
def sqSum (a : FVec Ideal S2x32000 .f32) : FVec Ideal S1x32000 .f32 :=
  shapeCast S1x32000 (multiReduction .add [0] S32000 (mulf a a) 0x00000000#32 reduces_S2x32000_S32000 (.inl rfl) rfl) shapeCasts_S32000_S1x32000

/-- The attributes' norm, one row: the root of that sum. -/
def nv (a : FVec Ideal S2x32000 .f32) : FVec Ideal S1x32000 .f32 := sqrt (sqSum a)

/-- The three row groups the feature tile stacks. -/
abbrev pieces (s d : FVec Ideal S1x32000 .f32) (a : FVec Ideal S2x32000 .f32) : List ((s : Shape) × (s.Idx → Ideal .f32)) :=
  [⟨S1x32000, dv s d⟩, ⟨S2x32000, a⟩, ⟨S1x32000, nv a⟩]

/-- The feature tile, four rows: (diff; a₀; a₁; norm), narrowed (the identity here). -/
def fv (s d : FVec Ideal S1x32000 .f32) (a : FVec Ideal S2x32000 .f32) : FVec Ideal S4x32000 .bf16 :=
  truncf .bf16 (concatenate S4x32000 0 (pieces s d a) concatenates_S1x32000_S2x32000_S1x32000_S4x32000_d0) bitsLt_bf16_f32

/-- First hidden tile before its relu. -/
def p1v (W1 : FVec Ideal S32x4 .bf16) (c1 : FVec Ideal S32x1 .f32) (s d : FVec Ideal S1x32000 .f32) (a : FVec Ideal S2x32000 .f32) :
    FVec Ideal S32x32000 .f32 :=
  addf (matmul dot_S32x4_S4x32000_S32x32000_1_0_0_1_n_n none W1 (fv s d a) (constant (F := Ideal) S32x32000 .f32 0x00000000#32))
    (broadcastTo S32x32000 c1 broadcasts_S32x1_S32x32000)

/-- Second hidden tile before its relu, from the first hidden tile. -/
def p2v (W2 : FVec Ideal S32x32 .bf16) (c2 : FVec Ideal S32x1 .f32) (h1 : FVec Ideal S32x32000 .f32) : FVec Ideal S32x32000 .f32 :=
  addf (matmul dot_S32x32_S32x32000_S32x32000_1_0_0_1_n_n none W2 (truncf .bf16 h1 bitsLt_bf16_f32) (constant (F := Ideal) S32x32000 .f32 0x00000000#32))
    (broadcastTo S32x32000 c2 broadcasts_S32x1_S32x32000)

/-- The coefficient tile, two rows, from the second hidden tile. -/
def cv (W3 : FVec Ideal S2x32 .bf16) (c3 : FVec Ideal S2x1 .f32) (h2 : FVec Ideal S32x32000 .f32) : FVec Ideal S2x32000 .f32 :=
  addf (matmul dot_S2x32_S32x32000_S2x32000_1_0_0_1_n_n none W3 (truncf .bf16 h2 bitsLt_bf16_f32) (constant (F := Ideal) S2x32000 .f32 0x00000000#32))
    (broadcastTo S2x32000 c3 broadcasts_S2x1_S2x32000)

/-- The scaled attributes, two rows: (diff / (norm · norm)) spread over the two rows, times the attributes. -/
def iv (s d : FVec Ideal S1x32000 .f32) (a : FVec Ideal S2x32000 .f32) : FVec Ideal S2x32000 .f32 :=
  mulf (broadcastTo S2x32000 (divf (dv s d) (mulf (nv a) (nv a))) broadcasts_S1x32000_S2x32000) a

/-- What a half-tile stores. -/
def outv (W1 : FVec Ideal S32x4 .bf16) (c1 : FVec Ideal S32x1 .f32) (W2 : FVec Ideal S32x32 .bf16) (c2 : FVec Ideal S32x1 .f32)
    (W3 : FVec Ideal S2x32 .bf16) (c3 : FVec Ideal S2x1 .f32) (s d : FVec Ideal S1x32000 .f32) (a : FVec Ideal S2x32000 .f32) :
    FVec Ideal S2x32000 .f32 :=
  mulf (iv s d a) (cv W3 c3 (maximumf (p2v W2 c2 (maximumf (p1v W1 c1 s d a) zTile)) zTile))

/-! ## Each read at an index -/

/-- A root taken entry by entry. -/
theorem vsqrt_apply {s : Shape} {φ : FTy} (x : FVec Ideal s φ) (i : s.Idx) : sqrt x i = Ideal.sqrt (x i) := rfl

theorem sqSum_apply (a : FVec Ideal S2x32000 .f32) (u : Fin 1) (l : Fin 32000) :
    sqSum a (ix2 u l) = ∑ k : Fin 2, a (ix2 k l) * a (ix2 k l) := by
  unfold sqSum
  refine (shapeCast_a_1a_apply (a := 32000) _ shapeCasts_S32000_S1x32000 u l).trans ?_
  refine (Ideal.multiReduction_add_single (mulf a a) 0x00000000#32 reduces_S2x32000_S32000 (.inl rfl) rfl (ix1 l)).trans ?_
  refine Finset.sum_congr rfl fun k _ => ?_
  have e : reduces_S2x32000_S32000.lift (ix1 l) k = ix2 k l := funext fun c => Fin.ext (by
    match c with
    | ⟨0, _⟩ => rfl
    | ⟨1, _⟩ => rfl)
  rw [e]
  rfl

theorem nv_apply (a : FVec Ideal S2x32000 .f32) (u : Fin 1) (l : Fin 32000) :
    nv a (ix2 u l) = nrm (fun k => a (ix2 k l)) := by
  rw [nv, vsqrt_apply, sqSum_apply]
  rfl

theorem fv_apply (s d : FVec Ideal S1x32000 .f32) (a : FVec Ideal S2x32000 .f32) (k : Fin 4) (l : Fin 32000) :
    fv s d a (ix2 k l) = feat (s (ix2 0 l) - d (ix2 0 l)) (fun k => a (ix2 k l)) k := by
  unfold fv feat
  show concatenate S4x32000 0 (pieces s d a) concatenates_S1x32000_S2x32000_S1x32000_S4x32000_d0 (ix2 k l) = _
  match k with
  | ⟨0, _⟩ =>
    exact concatenate_apply_piece (0 : Fin S4x32000.rank) (pieces s d a) concatenates_S1x32000_S2x32000_S1x32000_S4x32000_d0 (ix2 _ l) 0 (by show (0 : ℕ) < 3; omega) S1x32000 (dv s d) rfl rfl 0 rfl (ix2 0 l)
      (fun b hb => by match b with | ⟨0, _⟩ => exact absurd rfl hb | ⟨1, _⟩ => rfl) rfl
  | ⟨1, _⟩ =>
    exact concatenate_apply_piece (0 : Fin S4x32000.rank) (pieces s d a) concatenates_S1x32000_S2x32000_S1x32000_S4x32000_d0 (ix2 _ l) 1 (by show (1 : ℕ) < 3; omega) S2x32000 a rfl rfl 1 rfl (ix2 0 l)
      (fun b hb => by match b with | ⟨0, _⟩ => exact absurd rfl hb | ⟨1, _⟩ => rfl) rfl
  | ⟨2, _⟩ =>
    exact concatenate_apply_piece (0 : Fin S4x32000.rank) (pieces s d a) concatenates_S1x32000_S2x32000_S1x32000_S4x32000_d0 (ix2 _ l) 1 (by show (1 : ℕ) < 3; omega) S2x32000 a rfl rfl 1 rfl (ix2 1 l)
      (fun b hb => by match b with | ⟨0, _⟩ => exact absurd rfl hb | ⟨1, _⟩ => rfl) rfl
  | ⟨3, _⟩ =>
    exact (concatenate_apply_piece (0 : Fin S4x32000.rank) (pieces s d a) concatenates_S1x32000_S2x32000_S1x32000_S4x32000_d0 (ix2 _ l) 2 (by show (2 : ℕ) < 3; omega) S1x32000 (nv a) rfl rfl 3 rfl (ix2 0 l)
      (fun b hb => by match b with | ⟨0, _⟩ => exact absurd rfl hb | ⟨1, _⟩ => rfl) rfl).trans (nv_apply a 0 l)

/-- `max · 0` against the zero tile, entry by entry. -/
theorem relu_apply (x : FVec Ideal S32x32000 .f32) (i : S32x32000.Idx) : maximumf x zTile i = relu (x i) := rfl

theorem p1v_apply (W1 : FVec Ideal S32x4 .bf16) (c1 : FVec Ideal S32x1 .f32) (s d : FVec Ideal S1x32000 .f32) (a : FVec Ideal S2x32000 .f32)
    (o : Fin 32) (l : Fin 32000) :
    p1v W1 c1 s d a (ix2 o l)
      = layer (feat (s (ix2 0 l) - d (ix2 0 l)) (fun k => a (ix2 k l))) (fun k o => W1 (ix2 o k)) (fun o => c1 (ix2 o 0)) o := by
  rw [p1v, addf_apply, dot1_apply, Cert.LibColumn.broadcastTo_a1_ab_apply (a := 32) (b := 32000) c1 broadcasts_S32x1_S32x32000 o l]
  unfold layer
  refine congrArg (· + c1 (ix2 o 0)) (Finset.sum_congr rfl fun k _ => ?_)
  rw [fv_apply, mul_comm]

theorem p2v_apply (W2 : FVec Ideal S32x32 .bf16) (c2 : FVec Ideal S32x1 .f32) (h1 : FVec Ideal S32x32000 .f32) (o : Fin 32) (l : Fin 32000) :
    p2v W2 c2 h1 (ix2 o l) = layer (fun k => h1 (ix2 k l)) (fun k o => W2 (ix2 o k)) (fun o => c2 (ix2 o 0)) o := by
  rw [p2v, addf_apply, dot2_apply, Cert.LibColumn.broadcastTo_a1_ab_apply (a := 32) (b := 32000) c2 broadcasts_S32x1_S32x32000 o l]
  unfold layer
  refine congrArg (· + c2 (ix2 o 0)) (Finset.sum_congr rfl fun k _ => ?_)
  rw [truncf_apply, mul_comm]

theorem cv_apply (W3 : FVec Ideal S2x32 .bf16) (c3 : FVec Ideal S2x1 .f32) (h2 : FVec Ideal S32x32000 .f32) (j : Fin 2) (l : Fin 32000) :
    cv W3 c3 h2 (ix2 j l) = layer (fun k => h2 (ix2 k l)) (fun k o => W3 (ix2 o k)) (fun o => c3 (ix2 o 0)) j := by
  rw [cv, addf_apply, dot3_apply, Cert.LibColumn.broadcastTo_a1_ab_apply (a := 2) (b := 32000) c3 broadcasts_S2x1_S2x32000 j l]
  unfold layer
  refine congrArg (· + c3 (ix2 j 0)) (Finset.sum_congr rfl fun k _ => ?_)
  rw [truncf_apply, mul_comm]

theorem iv_apply (s d : FVec Ideal S1x32000 .f32) (a : FVec Ideal S2x32000 .f32) (j : Fin 2) (l : Fin 32000) :
    iv s d a (ix2 j l)
      = Ideal.div (s (ix2 0 l) - d (ix2 0 l)) (nrm (fun k => a (ix2 k l)) * nrm (fun k => a (ix2 k l))) * a (ix2 j l) := by
  rw [iv, mulf_apply, broadcastTo_1b_ab_apply (a := 2) (b := 32000) _ broadcasts_S1x32000_S2x32000 j l, divf_apply, mulf_apply,
    nv_apply, dv, subf_apply]

/-- THE HALF-TILE at row `j`, lane `l`: the edge update of the lane's own entries, the weights read transposed. -/
theorem outv_apply (W1 : FVec Ideal S32x4 .bf16) (c1 : FVec Ideal S32x1 .f32) (W2 : FVec Ideal S32x32 .bf16) (c2 : FVec Ideal S32x1 .f32)
    (W3 : FVec Ideal S2x32 .bf16) (c3 : FVec Ideal S2x1 .f32) (s d : FVec Ideal S1x32000 .f32) (a : FVec Ideal S2x32000 .f32)
    (j : Fin 2) (l : Fin 32000) :
    outv W1 c1 W2 c2 W3 c3 s d a (ix2 j l)
      = edge (s (ix2 0 l)) (d (ix2 0 l)) (fun k => a (ix2 k l)) (fun k o => W1 (ix2 o k)) (fun o => c1 (ix2 o 0))
          (fun k o => W2 (ix2 o k)) (fun o => c2 (ix2 o 0)) (fun k o => W3 (ix2 o k)) (fun o => c3 (ix2 o 0)) j := by
  rw [outv, mulf_apply, iv_apply, cv_apply]
  simp only [relu_apply, p2v_apply, p1v_apply]
  rfl

/-! ## The two stored payloads are that half-tile -/

/-- The first half's stored value. -/
theorem pay_first (W1 : Vec Ideal S32x4 .bf16) (c1 : Vec Ideal S32x1 .f32) (W2 : Vec Ideal S32x32 .bf16) (c2 : Vec Ideal S32x1 .f32)
    (W3 : Vec Ideal S2x32 .bf16) (c3 : Vec Ideal S2x1 .f32) (s d : Vec Ideal S1x32000 .f32) (a : Vec Ideal S2x32000 .f32) :
    k0_pay13 (k0_pay4 W2) (k0_pay5 c2) (k0_pay6 W3) (k0_pay7 c3) (k0_pay11 s d a) (k0_pay12 W1 c1 s d a)
      = outv W1 c1 W2 c2 W3 c3 s d a := by
  unfold k0_pay13 k0_pay12 k0_pay11 k0_pay10 k0_pay9 k0_pay8 k0_pay7 k0_pay6 k0_pay5 k0_pay4 k0_pay3 k0_pay2
  unfold outv iv cv p2v p1v fv pieces nv sqSum dv
  rw [shapeCast_self s, shapeCast_self d, shapeCast_self a, shapeCast_self W1, shapeCast_self c1, shapeCast_self W2,
    shapeCast_self c2, shapeCast_self W3, shapeCast_self c3]

/-- The second half's stored value. -/
theorem pay_second (W1 : Vec Ideal S32x4 .bf16) (c1 : Vec Ideal S32x1 .f32) (W2 : Vec Ideal S32x32 .bf16) (c2 : Vec Ideal S32x1 .f32)
    (W3 : Vec Ideal S2x32 .bf16) (c3 : Vec Ideal S2x1 .f32) (s d : Vec Ideal S1x32000 .f32) (a : Vec Ideal S2x32000 .f32) :
    k0_pay1 (k0_pay6 W3) (k0_pay7 c3) (k0_pay17 s d a) (k0_pay18 (k0_pay2 W1) (k0_pay3 c1) (k0_pay4 W2) (k0_pay5 c2) s d a) k0_pay19
      = outv W1 c1 W2 c2 W3 c3 s d a := by
  unfold k0_pay1 k0_pay19 k0_pay18 k0_pay17 k0_pay16 k0_pay15 k0_pay14 k0_pay7 k0_pay6 k0_pay5 k0_pay4 k0_pay3 k0_pay2
  unfold outv iv cv p2v p1v fv pieces nv sqSum dv
  rw [shapeCast_self s, shapeCast_self d, shapeCast_self a, shapeCast_self W1, shapeCast_self c1, shapeCast_self W2,
    shapeCast_self c2, shapeCast_self W3, shapeCast_self c3]

end Cert.KernelIdeal.EdgeBody

end
-- ==== Proof.EdgeBlocks.lean ====
/-
  From one grid point's staged blocks to the whole transposed result array.

  A grid point works on a tile of 64000 edges laid out (feature, edge). Its body stores the tile's result in two
  halves of 32000 lanes; both halves are restrictions of ONE function of the tile's blocks, `tileFn`: at row `j`, lane
  `q` it is the edge update of the lane's own entries of the endpoint and attribute blocks. The stored pieces cover the
  tile, so the staged result is `tileFn`. Point `t`'s blocks are the lanes `64000·t … 64000·t + 63999` of the
  (feature, edge) arrays, the weight and bias blocks are the whole arrays, and the 125 points' tiles cover all 8,000,000
  lanes: the array after the region is `arrFn`, the edge update laid out (feature, edge).
-/
import proofs.«153126_j63668595196291_2_alg».proof.Proof.Gen.KernelIdeal.Frame
import proofs.«153126_j63668595196291_2_alg».proof.Proof.EdgeBody
import Idealize.ShloMosaic.Lib.Pipeline.Value
import Idealize.ShloMosaic.Lib.Tactic

set_option maxRecDepth 16384

noncomputable section

namespace Cert.KernelIdeal.EdgeBlocks

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen Cert.EdgeSpec Cert.KernelIdeal.EdgeBody

theorem hz : (![0, 0] : Fin 2 → Nat) = fun _ => 0 := funext fun a => by fin_cases a <;> rfl

/-! ## One tile -/

/-- The tile's result as one function of the nine staged blocks: row `j`, lane `q`. -/
def tileFn (x0 x1 : Vec Ideal S1x64000 .f32) (x2 : Vec Ideal S2x64000 .f32) (x3 : Vec Ideal S32x4 .bf16) (x4 : Vec Ideal S32x1 .f32) (x5 : Vec Ideal S32x32 .bf16) (x6 : Vec Ideal S32x1 .f32) (x7 : Vec Ideal S2x32 .bf16) (x8 : Vec Ideal S2x1 .f32) : S2x64000.Idx → Ideal .f32 := fun y =>
  edge (x0 (ix2 0 ⟨(y 1).val, (y 1).isLt⟩)) (x1 (ix2 0 ⟨(y 1).val, (y 1).isLt⟩)) (fun k => x2 (ix2 k ⟨(y 1).val, (y 1).isLt⟩))
    (fun k o => x3 (ix2 o k)) (fun o => x4 (ix2 o 0)) (fun k o => x5 (ix2 o k)) (fun o => x6 (ix2 o 0))
    (fun k o => x7 (ix2 o k)) (fun o => x8 (ix2 o 0)) ⟨(y 0).val, (y 0).isLt⟩

/-- The same at an index whose coordinates are known. -/
theorem tileFn_at (x0 x1 : Vec Ideal S1x64000 .f32) (x2 : Vec Ideal S2x64000 .f32) (x3 : Vec Ideal S32x4 .bf16) (x4 : Vec Ideal S32x1 .f32) (x5 : Vec Ideal S32x32 .bf16) (x6 : Vec Ideal S32x1 .f32) (x7 : Vec Ideal S2x32 .bf16) (x8 : Vec Ideal S2x1 .f32) (y : S2x64000.Idx) (j : Fin 2) (q : Fin 64000)
    (h0 : (y 0).val = j.val) (h1 : (y 1).val = q.val) :
    tileFn x0 x1 x2 x3 x4 x5 x6 x7 x8 y
      = edge (x0 (ix2 0 q)) (x1 (ix2 0 q)) (fun k => x2 (ix2 k q)) (fun k o => x3 (ix2 o k)) (fun o => x4 (ix2 o 0))
          (fun k o => x5 (ix2 o k)) (fun o => x6 (ix2 o 0)) (fun k o => x7 (ix2 o k)) (fun o => x8 (ix2 o 0)) j := by
  have e0 : (⟨(y 0).val, (y 0).isLt⟩ : Fin 2) = j := Fin.ext h0
  have e1 : (⟨(y 1).val, (y 1).isLt⟩ : Fin 64000) = q := Fin.ext h1
  unfold tileFn
  rw [e0, e1]

/-- A one-row block's half, read at a lane: the block at the half's offset plus the lane. -/
theorem ld_row (X : Vec Ideal S1x64000 .f32) (off : ℕ) (inb : ∀ a, (![0, off] : Fin 2 → ℕ) a + S1x32000.size a ≤ S1x64000.size a)
    (u : Fin 1) (l : Fin 32000) (h : off + l.val < 64000) :
    View.ld X (Rect.unit (s := S1x64000) ![0, off] S1x32000.size inb) (ix2 u l) = X (ix2 u ⟨off + l.val, h⟩) := by
  refine congrArg X (funext fun a => Fin.ext ?_)
  match a with
  | ⟨0, _⟩ => show 0 + 1 * u.val = u.val; omega
  | ⟨1, _⟩ => show off + 1 * l.val = off + l.val; omega

/-- A two-row block's half, read at a row and a lane. -/
theorem ld_rows (X : Vec Ideal S2x64000 .f32) (off : ℕ) (inb : ∀ a, (![0, off] : Fin 2 → ℕ) a + S2x32000.size a ≤ S2x64000.size a)
    (k : Fin 2) (l : Fin 32000) (h : off + l.val < 64000) :
    View.ld X (Rect.unit (s := S2x64000) ![0, off] S2x32000.size inb) (ix2 k l) = X (ix2 k ⟨off + l.val, h⟩) := by
  refine congrArg X (funext fun a => Fin.ext ?_)
  match a with
  | ⟨0, _⟩ => show 0 + 1 * k.val = k.val; omega
  | ⟨1, _⟩ => show off + 1 * l.val = off + l.val; omega

/-- A half-tile computed from the blocks' halves at offset `off` is `tileFn` on that half of the tile. -/
theorem half_eq (x0 x1 : Vec Ideal S1x64000 .f32) (x2 : Vec Ideal S2x64000 .f32) (x3 : Vec Ideal S32x4 .bf16) (x4 : Vec Ideal S32x1 .f32) (x5 : Vec Ideal S32x32 .bf16) (x6 : Vec Ideal S32x1 .f32) (x7 : Vec Ideal S2x32 .bf16) (x8 : Vec Ideal S2x1 .f32) (off : ℕ) (hoff : off + 32000 ≤ 64000)
    (inb1 : ∀ a, (![0, off] : Fin 2 → ℕ) a + S1x32000.size a ≤ S1x64000.size a)
    (inb2 : ∀ a, (![0, off] : Fin 2 → ℕ) a + S2x32000.size a ≤ S2x64000.size a)
    (inb3 : ∀ a, (![0, off] : Fin 2 → ℕ) a + (![2, 32000] : Fin 2 → ℕ) a ≤ S2x64000.size a)
    (j : Fin 2) (l : Fin 32000) :
    outv x3 x4 x5 x6 x7 x8 (View.ld x0 (Rect.unit (s := S1x64000) ![0, off] S1x32000.size inb1))
        (View.ld x1 (Rect.unit (s := S1x64000) ![0, off] S1x32000.size inb1))
        (View.ld x2 (Rect.unit (s := S2x64000) ![0, off] S2x32000.size inb2)) (ix2 j l)
      = tileFn x0 x1 x2 x3 x4 x5 x6 x7 x8 ((Rect.unit (s := S2x64000) ![0, off] ![2, 32000] inb3).emb (ix2 j l)) := by
  have hl : off + l.val < 64000 := by have := l.isLt; omega
  rw [outv_apply, ld_row x0 off inb1 0 l hl, ld_row x1 off inb1 0 l hl,
    show (fun k => View.ld x2 (Rect.unit (s := S2x64000) ![0, off] S2x32000.size inb2) (ix2 k l)) = fun k => x2 (ix2 k ⟨off + l.val, hl⟩)
      from funext fun k => ld_rows x2 off inb2 k l hl]
  exact (tileFn_at x0 x1 x2 x3 x4 x5 x6 x7 x8 _ j ⟨off + l.val, hl⟩ (by show 0 + 1 * j.val = j.val; omega)
    (by show off + 1 * l.val = off + l.val; omega)).symm

/-- WHAT THE BODY LEAVES STAGED: its two stored halves are the two halves of `tileFn` of the staged blocks, and together
    they cover the tile. -/
theorem out_eq (c : Dev nD) (i : grid0.Coords) (arg1 : Memref sig .tc .vmem S1x64000 .f32) (harg1 : arg1.IsWhole) (arg2 : Memref sig .tc .vmem S1x64000 .f32) (harg2 : arg2.IsWhole) (arg3 : Memref sig .tc .vmem S2x64000 .f32) (harg3 : arg3.IsWhole) (arg4 : Memref sig .tc .vmem S32x4 .bf16) (harg4 : arg4.IsWhole) (arg5 : Memref sig .tc .vmem S32x1 .f32) (harg5 : arg5.IsWhole) (arg6 : Memref sig .tc .vmem S32x32 .bf16) (harg6 : arg6.IsWhole) (arg7 : Memref sig .tc .vmem S32x1 .f32) (harg7 : arg7.IsWhole) (arg8 : Memref sig .tc .vmem S2x32 .bf16) (harg8 : arg8.IsWhole) (arg9 : Memref sig .tc .vmem S2x1 .f32) (harg9 : arg9.IsWhole) (arg10 : Memref sig .tc .vmem S2x64000 .f32) (harg10 : arg10.IsWhole)
    (x0 : Vec Ideal S1x64000 .f32) (x1 : Vec Ideal S1x64000 .f32) (x2 : Vec Ideal S2x64000 .f32) (x3 : Vec Ideal S32x4 .bf16) (x4 : Vec Ideal S32x1 .f32) (x5 : Vec Ideal S32x32 .bf16) (x6 : Vec Ideal S32x1 .f32) (x7 : Vec Ideal S2x32 .bf16) (x8 : Vec Ideal S2x1 .f32) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 x8 = tileFn x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7 x8)]
  funext y
  refine View.canon_apply_of_pieces (tileFn x0 x1 x2 x3 x4 x5 x6 x7 x8) _ ?_ y (cover0_A_9 c i arg1 harg1 arg2 harg2 arg3 harg3 arg4 harg4 arg5 harg5 arg6 harg6 arg7 harg7 arg8 harg8 arg9 harg9 arg10 harg10 x0 x1 x2 x3 x4 x5 x6 x7 x8 y)
  unfold kernelRun0_A
  dsimp only
  sl_unfold_words
  intro p hp
  rcases List.mem_cons.mp hp with rfl | hp
  · intro x
    obtain ⟨j, l, rfl⟩ : ∃ (j : Fin 2) (l : Fin 32000), x = ix2 j l := ⟨x 0, x 1, eq_ix2 x⟩
    simp only [View.readAt_eq_ld, harg1.read_unread, harg2.read_unread, harg3.read_unread, harg4.read_unread, harg5.read_unread, harg6.read_unread, harg7.read_unread, harg8.read_unread, harg9.read_unread, View.ld_unit_zero (S := S32x4) hz, View.ld_unit_zero (S := S32x1) hz, View.ld_unit_zero (S := S32x32) hz, View.ld_unit_zero (S := S2x32) hz, View.ld_unit_zero (S := S2x1) hz]
    rw [pay_second]
    exact half_eq x0 x1 x2 x3 x4 x5 x6 x7 x8 32000 (by omega) _ _ _ j l
  · rcases List.mem_singleton.mp hp with rfl
    intro x
    obtain ⟨j, l, rfl⟩ : ∃ (j : Fin 2) (l : Fin 32000), x = ix2 j l := ⟨x 0, x 1, eq_ix2 x⟩
    simp only [View.readAt_eq_ld, harg1.read_unread, harg2.read_unread, harg3.read_unread, harg4.read_unread, harg5.read_unread, harg6.read_unread, harg7.read_unread, harg8.read_unread, harg9.read_unread, View.ld_unit_zero (S := S32x4) hz, View.ld_unit_zero (S := S32x1) hz, View.ld_unit_zero (S := S32x32) hz, View.ld_unit_zero (S := S2x32) hz, View.ld_unit_zero (S := S2x1) hz]
    rw [pay_first]
    exact half_eq x0 x1 x2 x3 x4 x5 x6 x7 x8 0 (by omega) _ _ _ j l

/-! ## All tiles: the array after the region -/

/-- The (feature, edge) result array as one function of the nine operand arrays as the region finds them. -/
def arrFn (A0 A1 : S1x8000000.Idx → Ideal .f32) (A2 : S2x8000000.Idx → Ideal .f32) (A3 : S32x4.Idx → Ideal .bf16) (A4 : S32x1.Idx → Ideal .f32) (A5 : S32x32.Idx → Ideal .bf16) (A6 : S32x1.Idx → Ideal .f32) (A7 : S2x32.Idx → Ideal .bf16) (A8 : S2x1.Idx → Ideal .f32) : S2x8000000.Idx → Ideal .f32 := fun i =>
  edge (A0 (ix2 0 ⟨(i 1).val, (i 1).isLt⟩)) (A1 (ix2 0 ⟨(i 1).val, (i 1).isLt⟩)) (fun k => A2 (ix2 k ⟨(i 1).val, (i 1).isLt⟩))
    (fun k o => A3 (ix2 o k)) (fun o => A4 (ix2 o 0)) (fun k o => A5 (ix2 o k)) (fun o => A6 (ix2 o 0))
    (fun k o => A7 (ix2 o k)) (fun o => A8 (ix2 o 0)) ⟨(i 0).val, (i 0).isLt⟩

theorem arrFn_at (A0 A1 : S1x8000000.Idx → Ideal .f32) (A2 : S2x8000000.Idx → Ideal .f32) (A3 : S32x4.Idx → Ideal .bf16) (A4 : S32x1.Idx → Ideal .f32) (A5 : S32x32.Idx → Ideal .bf16) (A6 : S32x1.Idx → Ideal .f32) (A7 : S2x32.Idx → Ideal .bf16) (A8 : S2x1.Idx → Ideal .f32) (i : S2x8000000.Idx) (j : Fin 2) (e : Fin 8000000)
    (h0 : (i 0).val = j.val) (h1 : (i 1).val = e.val) :
    arrFn A0 A1 A2 A3 A4 A5 A6 A7 A8 i
      = edge (A0 (ix2 0 e)) (A1 (ix2 0 e)) (fun k => A2 (ix2 k e)) (fun k o => A3 (ix2 o k)) (fun o => A4 (ix2 o 0))
          (fun k o => A5 (ix2 o k)) (fun o => A6 (ix2 o 0)) (fun k o => A7 (ix2 o k)) (fun o => A8 (ix2 o 0)) j := by
  have e0 : (⟨(i 0).val, (i 0).isLt⟩ : Fin 2) = j := Fin.ext h0
  have e1 : (⟨(i 1).val, (i 1).isLt⟩ : Fin 8000000) = e := Fin.ext h1
  unfold arrFn
  rw [e0, e1]

variable (m : (ℓ : Loc nD τ sig) → Buf (Elt Ideal) ℓ) (ρ : Dev nD → PrngReg)

/-- Where each window's block sits at point `t`: the three streamed inputs and the output are at lane block `t` of row
    block 0; the six weight and bias windows are at block (0, 0). Decided once over the 125 points. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = t.val :=
  (by decide +kernel : ∀ t : Fin grid0.N, _)

/-- The first endpoint block at lane `q` is the array's lane `64000·t + q`. -/
theorem blk0 (c : Dev nD) (t : Fin cfg0.N) (q : Fin 64000) (h : 64000 * t.val + q.val < 8000000) :
    iblk m c 0 t (ix2 0 q) = V m c main_v0 (ix2 0 ⟨64000 * t.val + q.val, h⟩) := by
  obtain ⟨e00, e01, _⟩ := idx_facts t
  show V m c main_v0 (((cfg0.win 0).blk t).view.emb (ix2 0 q)) = V m c main_v0 _
  refine congrArg (V m c main_v0) (funext fun a => Fin.ext ?_)
  match a with
  | ⟨0, _⟩ => show win0_0.index t (0 : Fin 2) * 1 + 1 * 0 = 0; rw [e00]
  | ⟨1, _⟩ => show win0_0.index t (1 : Fin 2) * 64000 + 1 * q.val = 64000 * t.val + q.val; rw [e01]; omega

/-- The second endpoint block, likewise. -/
theorem blk1 (c : Dev nD) (t : Fin cfg0.N) (q : Fin 64000) (h : 64000 * t.val + q.val < 8000000) :
    iblk m c 1 t (ix2 0 q) = V m c main_v1 (ix2 0 ⟨64000 * t.val + q.val, h⟩) := by
  obtain ⟨_, _, e10, e11, _⟩ := idx_facts t
  show V m c main_v1 (((cfg0.win 1).blk t).view.emb (ix2 0 q)) = V m c main_v1 _
  refine congrArg (V m c main_v1) (funext fun a => Fin.ext ?_)
  match a with
  | ⟨0, _⟩ => show win0_1.index t (0 : Fin 2) * 1 + 1 * 0 = 0; rw [e10]
  | ⟨1, _⟩ => show win0_1.index t (1 : Fin 2) * 64000 + 1 * q.val = 64000 * t.val + q.val; rw [e11]; omega

/-- The attribute block at row `k`, lane `q`. -/
theorem blk2 (c : Dev nD) (t : Fin cfg0.N) (k : Fin 2) (q : Fin 64000) (h : 64000 * t.val + q.val < 8000000) :
    iblk m c 2 t (ix2 k q) = V m c main_v2 (ix2 k ⟨64000 * t.val + q.val, h⟩) := by
  obtain ⟨_, _, _, _, e20, e21, _⟩ := idx_facts t
  show V m c main_v2 (((cfg0.win 2).blk t).view.emb (ix2 k q)) = V m c main_v2 _
  refine congrArg (V m c main_v2) (funext fun a => Fin.ext ?_)
  match a with
  | ⟨0, _⟩ => show win0_2.index t (0 : Fin 2) * 2 + 1 * k.val = k.val; rw [e20]; omega
  | ⟨1, _⟩ => show win0_2.index t (1 : Fin 2) * 64000 + 1 * q.val = 64000 * t.val + q.val; rw [e21]; omega

/-- Window 3 stages its whole array at every point. -/
theorem blk3 (c : Dev nD) (t : Fin cfg0.N) : iblk m c 3 t = V m c main_v4 := by
  obtain ⟨_, _, _, _, _, _, e30, e31, e40, e41, e50, e51, e60, e61, e70, e71, e80, e81, _, _⟩ := idx_facts t
  funext y
  show V m c main_v4 (((cfg0.win 3).blk t).view.emb y) = V m c main_v4 y
  refine congrArg (V m c main_v4) (funext fun a => Fin.ext ?_)
  match a with
  | ⟨0, _⟩ => show win0_3.index t (0 : Fin 2) * 32 + 1 * (y 0).val = (y 0).val; rw [e30]; omega
  | ⟨1, _⟩ => show win0_3.index t (1 : Fin 2) * 4 + 1 * (y 1).val = (y 1).val; rw [e31]; omega

/-- Window 4 stages its whole array at every point. -/
theorem blk4 (c : Dev nD) (t : Fin cfg0.N) : iblk m c 4 t = V m c main_v9 := by
  obtain ⟨_, _, _, _, _, _, e30, e31, e40, e41, e50, e51, e60, e61, e70, e71, e80, e81, _, _⟩ := idx_facts t
  funext y
  show V m c main_v9 (((cfg0.win 4).blk t).view.emb y) = V m c main_v9 y
  refine congrArg (V m c main_v9) (funext fun a => Fin.ext ?_)
  match a with
  | ⟨0, _⟩ => show win0_4.index t (0 : Fin 2) * 32 + 1 * (y 0).val = (y 0).val; rw [e40]; omega
  | ⟨1, _⟩ => show win0_4.index t (1 : Fin 2) * 1 + 1 * (y 1).val = (y 1).val; rw [e41]; omega

/-- Window 5 stages its whole array at every point. -/
theorem blk5 (c : Dev nD) (t : Fin cfg0.N) : iblk m c 5 t = V m c main_v6 := by
  obtain ⟨_, _, _, _, _, _, e30, e31, e40, e41, e50, e51, e60, e61, e70, e71, e80, e81, _, _⟩ := idx_facts t
  funext y
  show V m c main_v6 (((cfg0.win 5).blk t).view.emb y) = V m c main_v6 y
  refine congrArg (V m c main_v6) (funext fun a => Fin.ext ?_)
  match a with
  | ⟨0, _⟩ => show win0_5.index t (0 : Fin 2) * 32 + 1 * (y 0).val = (y 0).val; rw [e50]; omega
  | ⟨1, _⟩ => show win0_5.index t (1 : Fin 2) * 32 + 1 * (y 1).val = (y 1).val; rw [e51]; omega

/-- Window 6 stages its whole array at every point. -/
theorem blk6 (c : Dev nD) (t : Fin cfg0.N) : iblk m c 6 t = V m c main_v10 := by
  obtain ⟨_, _, _, _, _, _, e30, e31, e40, e41, e50, e51, e60, e61, e70, e71, e80, e81, _, _⟩ := idx_facts t
  funext y
  show V m c main_v10 (((cfg0.win 6).blk t).view.emb y) = V m c main_v10 y
  refine congrArg (V m c main_v10) (funext fun a => Fin.ext ?_)
  match a with
  | ⟨0, _⟩ => show win0_6.index t (0 : Fin 2) * 32 + 1 * (y 0).val = (y 0).val; rw [e60]; omega
  | ⟨1, _⟩ => show win0_6.index t (1 : Fin 2) * 1 + 1 * (y 1).val = (y 1).val; rw [e61]; omega

/-- Window 7 stages its whole array at every point. -/
theorem blk7 (c : Dev nD) (t : Fin cfg0.N) : iblk m c 7 t = V m c main_v8 := by
  obtain ⟨_, _, _, _, _, _, e30, e31, e40, e41, e50, e51, e60, e61, e70, e71, e80, e81, _, _⟩ := idx_facts t
  funext y
  show V m c main_v8 (((cfg0.win 7).blk t).view.emb y) = V m c main_v8 y
  refine congrArg (V m c main_v8) (funext fun a => Fin.ext ?_)
  match a with
  | ⟨0, _⟩ => show win0_7.index t (0 : Fin 2) * 2 + 1 * (y 0).val = (y 0).val; rw [e70]; omega
  | ⟨1, _⟩ => show win0_7.index t (1 : Fin 2) * 32 + 1 * (y 1).val = (y 1).val; rw [e71]; omega

/-- Window 8 stages its whole array at every point. -/
theorem blk8 (c : Dev nD) (t : Fin cfg0.N) : iblk m c 8 t = V m c main_v11 := by
  obtain ⟨_, _, _, _, _, _, e30, e31, e40, e41, e50, e51, e60, e61, e70, e71, e80, e81, _, _⟩ := idx_facts t
  funext y
  show V m c main_v11 (((cfg0.win 8).blk t).view.emb y) = V m c main_v11 y
  refine congrArg (V m c main_v11) (funext fun a => Fin.ext ?_)
  match a with
  | ⟨0, _⟩ => show win0_8.index t (0 : Fin 2) * 2 + 1 * (y 0).val = (y 0).val; rw [e80]; omega
  | ⟨1, _⟩ => show win0_8.index t (1 : Fin 2) * 1 + 1 * (y 1).val = (y 1).val; rw [e81]; omega

/-- WHAT POINT `t` WRITES BACK is block `t` of `arrFn` of the operand arrays as the region finds them. -/
theorem flushed_eq (c : Dev nD) (t : Fin cfg0.N) :
    (dats m 0 c).flushed 9 t = ((cfg0.win 9).blk t).view.read (Elt Ideal) (arrFn (V m c main_v0) (V m c main_v1) (V m c main_v2) (V m c main_v4) (V m c main_v9) (V m c main_v6) (V m c main_v10) (V m c main_v8) (V m c main_v11)) := by
  have hN : cfg0.N = 125 := N_0
  obtain ⟨_, _, _, _, _, _, _, _, _, _, _, _, _, _, _, _, _, _, e90, e91⟩ := idx_facts t
  show (cfg0.win 9).cut (grid0.coords t) ((dats m 0 c).after 9 t) = _
  rw [after0_9]
  unfold outsAt0
  rw [out_eq]
  funext y
  have hy0 : (y 0).val < 2 := (y 0).isLt
  have hy1 : (y 1).val < 64000 := (y 1).isLt
  have ht : t.val < 125 := hN ▸ t.isLt
  have hq : 64000 * t.val + (y 1).val < 8000000 := by omega
  refine (tileFn_at (iblk m c 0 t) (iblk m c 1 t) (iblk m c 2 t) (iblk m c 3 t) (iblk m c 4 t) (iblk m c 5 t) (iblk m c 6 t)
    (iblk m c 7 t) (iblk m c 8 t) y ⟨(y 0).val, hy0⟩ ⟨(y 1).val, hy1⟩ rfl rfl).trans ?_
  refine Eq.trans ?_ (arrFn_at (V m c main_v0) (V m c main_v1) (V m c main_v2) (V m c main_v4) (V m c main_v9) (V m c main_v6) (V m c main_v10) (V m c main_v8) (V m c main_v11) (((cfg0.win 9).blk t).view.emb y) ⟨(y 0).val, hy0⟩ ⟨64000 * t.val + (y 1).val, hq⟩
    (by show win0_9.index t (0 : Fin 2) * 2 + 1 * (y 0).val = (y 0).val; rw [e90]; omega)
    (by show win0_9.index t (1 : Fin 2) * 64000 + 1 * (y 1).val = 64000 * t.val + (y 1).val; rw [e91]; omega)).symm
  rw [blk0 m c t ⟨(y 1).val, hy1⟩ hq, blk1 m c t ⟨(y 1).val, hy1⟩ hq,
    show (fun k => iblk m c 2 t (ix2 k ⟨(y 1).val, hy1⟩)) = fun k => V m c main_v2 (ix2 k ⟨64000 * t.val + (y 1).val, hq⟩)
      from funext fun k => blk2 m c t k ⟨(y 1).val, hy1⟩ hq,
    blk3 m c t, blk4 m c t, blk5 m c t, blk6 m c t, blk7 m c t, blk8 m c t]

/-- An index of the array is in point `t`'s block iff each coordinate is in the block's range on its axis. -/
theorem mem_blk (t : Fin cfg0.N) (i : S2x8000000.Idx) :
    i ∈ ((cfg0.win 9).blk t).view.set ↔ ∀ a : Fin 2, win0_9.index t a * S2x64000.size a ≤ (i a).val ∧ (i a).val < win0_9.index t a * S2x64000.size a + S2x64000.size a := by
  show i ∈ ((View.whole main_v12).slice (win0_9.rect t)).set ↔ _
  rw [View.set_slice_whole, Rect.mem_set_unit]
  exact Iff.rfl

/-- THE ARRAY AFTER THE REGION: lane `e` lies in the tile of point `e / 64000`, so every index is written, with `arrFn`. -/
theorem final (c : Dev nD) : (dats m 0 c).arrAt 9 cfg0.N = arrFn (V m c main_v0) (V m c main_v1) (V m c main_v2) (V m c main_v4) (V m c main_v9) (V m c main_v6) (V m c main_v10) (V m c main_v8) (V m c main_v11) :=
  (dats m 0 c).arrAt_eq_of_cover 9 (arrFn (V m c main_v0) (V m c main_v1) (V m c main_v2) (V m c main_v4) (V m c main_v9) (V m c main_v6) (V m c main_v10) (V m c main_v8) (V m c main_v11)) (fun t _ => flushed_eq m c t) fun i => by
    have hN : cfg0.N = 125 := N_0
    have hi0 : (i 0).val < 2 := (i 0).isLt
    have hi1 : (i 1).val < 8000000 := (i 1).isLt
    have htl : (i 1).val / 64000 < cfg0.N := by rw [hN]; omega
    obtain ⟨_, _, _, _, _, _, _, _, _, _, _, _, _, _, _, _, _, _, e90, e91⟩ := idx_facts ⟨(i 1).val / 64000, htl⟩
    refine ⟨⟨(i 1).val / 64000, htl⟩, flush0_9 _, ?_⟩
    rw [mem_blk]
    intro a
    match a with
    | ⟨0, _⟩ =>
      show win0_9.index ⟨(i 1).val / 64000, htl⟩ (0 : Fin 2) * 2 ≤ (i 0).val ∧ (i 0).val < win0_9.index ⟨(i 1).val / 64000, htl⟩ (0 : Fin 2) * 2 + 2
      rw [e90]; omega
    | ⟨1, _⟩ =>
      show win0_9.index ⟨(i 1).val / 64000, htl⟩ (1 : Fin 2) * 64000 ≤ (i 1).val ∧ (i 1).val < win0_9.index ⟨(i 1).val / 64000, htl⟩ (1 : Fin 2) * 64000 + 64000
      have q1 : win0_9.index ⟨(i 1).val / 64000, htl⟩ (1 : Fin 2) = (i 1).val / 64000 := e91
      omega

end Cert.KernelIdeal.EdgeBlocks

end
-- ==== Proof.LibRowColumn.lean ====
/-
  A column read as a row: an `a × 1` array reshaped to `1 × a` reads, at `(u, e)`, the column's entry `e` — both sit at
  row-major position `e`. Stated over literal rank-2 indices built from their coordinates.
-/
import Idealize.ShloMosaic.Lib.Pipeline.Value
import Idealize.ShloMosaic.Lib.ValueIdx

namespace Cert.LibRowColumn

open Idealize.ShloMosaic Idealize.ShloMosaic.ValueIdx

variable {α : Type}

/-- An `[a, 1]` array cast to `[1, a]` reads, at `(u, e)`, the operand at `(e, 0)`, whatever the unit coordinate `u`. -/
theorem shapeCast_a1_1a_apply {a : ℕ} (x : (⟨2, ![a, 1]⟩ : Shape).Idx → α) (h : (⟨2, ![a, 1]⟩ : Shape).ShapeCasts ⟨2, ![1, a]⟩)
    (u : Fin 1) (e : Fin a) : shapeCast ⟨2, ![1, a]⟩ x h (ix2 u e) = x (ix2 e (0 : Fin 1)) :=
  shapeCast_apply x h _ _ (by
    have hu : u.val = 0 := by omega
    rw [Shape.rowMajor_val_two, Shape.rowMajor_val_two]
    show e.val * 1 + 0 = u.val * a + e.val
    rw [hu, Nat.zero_mul, Nat.zero_add, Nat.mul_one, Nat.add_zero])

end Cert.LibRowColumn
-- ==== Proof.EdgeArrays.lean ====
/-
  The arrays the region finds, read at an index in terms of the program's arguments.

  Before the region the host lays the arguments out (feature, edge): the two endpoint columns are reshaped to rows, the
  attribute array and the three weight matrices are transposed (the weights then narrowed, the identity at the extended
  reals), and the three bias vectors are reshaped to columns. Each of the nine operand arrays of the region is read here
  at an index as an entry of the argument it comes from.
-/
import proofs.«153126_j63668595196291_2_alg».proof.Proof.Gen.KernelIdeal.Frame.Runs
import proofs.«153126_j63668595196291_2_alg».proof.Proof.LibColumn
import proofs.«153126_j63668595196291_2_alg».proof.Proof.LibRowColumn
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

set_option maxRecDepth 16384

noncomputable section

namespace Cert.KernelIdeal.EdgeArrays

open Idealize.ShloMosaic Idealize.ShloMosaic.TcCoe Idealize.ShloMosaic.Tactic Idealize.SL.Sem Idealize.ShloMosaic.ValueIdx
open Idealize.ShloMosaic.StableHlo
open Cert.KernelIdeal Cert.KernelIdeal.Gen

variable (m : (ℓ : Loc nD τ sig) → Buf (Elt Ideal) ℓ)

/-- The first endpoint row at lane `e` is the first endpoint column's entry `e`. -/
theorem v0_apply (c : Dev nD) (e : Fin 8000000) :
    (V m c main_v0 : S1x8000000.Idx → Ideal .f32) (ix2 0 e) = ((m ((c : Thread nD τ).loc main_arg0)) : S8000000x1.Idx → Ideal .f32) (ix2 e 0) := by
  have h : (V m c main_v0 : S1x8000000.Idx → Ideal .f32) = shapeCast S1x8000000 (m ((c : Thread nD τ).loc main_arg0)) shapeCasts_S8000000x1_S1x8000000 := by
    show StableHlo.after hostOps0 (fun b => m (c, b)) (Proc.devRef .tc main_v0) = _
    after_results <;> rfl
  rw [h]
  exact Cert.LibRowColumn.shapeCast_a1_1a_apply (a := 8000000) _ shapeCasts_S8000000x1_S1x8000000 0 e

/-- The second endpoint row, likewise. -/
theorem v1_apply (c : Dev nD) (e : Fin 8000000) :
    (V m c main_v1 : S1x8000000.Idx → Ideal .f32) (ix2 0 e) = ((m ((c : Thread nD τ).loc main_arg1)) : S8000000x1.Idx → Ideal .f32) (ix2 e 0) := by
  have h : (V m c main_v1 : S1x8000000.Idx → Ideal .f32) = shapeCast S1x8000000 (m ((c : Thread nD τ).loc main_arg1)) shapeCasts_S8000000x1_S1x8000000 := by
    show StableHlo.after hostOps0 (fun b => m (c, b)) (Proc.devRef .tc main_v1) = _
    after_results <;> rfl
  rw [h]
  exact Cert.LibRowColumn.shapeCast_a1_1a_apply (a := 8000000) _ shapeCasts_S8000000x1_S1x8000000 0 e

/-- The attribute rows: row `k`, lane `e` is the attribute array at `(e, k)`. -/
theorem v2_apply (c : Dev nD) (k : Fin 2) (e : Fin 8000000) :
    (V m c main_v2 : S2x8000000.Idx → Ideal .f32) (ix2 k e) = ((m ((c : Thread nD τ).loc main_arg2)) : S8000000x2.Idx → Ideal .f32) (ix2 e k) := by
  have h : (V m c main_v2 : S2x8000000.Idx → Ideal .f32) = transpose S2x8000000 [1, 0] (m ((c : Thread nD τ).loc main_arg2)) transposes_S8000000x2_S2x8000000_1_0 := by
    show StableHlo.after hostOps0 (fun b => m (c, b)) (Proc.devRef .tc main_v2) = _
    after_results <;> rfl
  rw [h]
  exact transpose_ix2_apply (a := 8000000) (b := 2) _ transposes_S8000000x2_S2x8000000_1_0 k e

/-- The first weight matrix, transposed and narrowed: `(o, k)` is the matrix at `(k, o)`. -/
theorem v4_apply (c : Dev nD) (o : Fin 32) (k : Fin 4) :
    (V m c main_v4 : S32x4.Idx → Ideal .bf16) (ix2 o k) = ((m ((c : Thread nD τ).loc main_arg5)) : S4x32.Idx → Ideal .f32) (ix2 k o) := by
  have h : (V m c main_v4 : S32x4.Idx → Ideal .bf16) = (truncf (F := Ideal) .bf16 (transpose S32x4 [1, 0] ((m ((c : Thread nD τ).loc main_arg5)) : S4x32.Idx → Ideal .f32) transposes_S4x32_S32x4_1_0) bitsLt_bf16_f32 : S32x4.Idx → Ideal .bf16) := by
    show StableHlo.after hostOps0 (fun b => m (c, b)) (Proc.devRef .tc main_v4) = _
    after_results <;> rfl
  rw [h, truncf_apply]
  exact transpose_ix2_apply (a := 4) (b := 32) _ transposes_S4x32_S32x4_1_0 o k

/-- The second weight matrix, likewise. -/
theorem v6_apply (c : Dev nD) (o : Fin 32) (k : Fin 32) :
    (V m c main_v6 : S32x32.Idx → Ideal .bf16) (ix2 o k) = ((m ((c : Thread nD τ).loc main_arg7)) : S32x32.Idx → Ideal .f32) (ix2 k o) := by
  have h : (V m c main_v6 : S32x32.Idx → Ideal .bf16) = (truncf (F := Ideal) .bf16 (transpose S32x32 [1, 0] ((m ((c : Thread nD τ).loc main_arg7)) : S32x32.Idx → Ideal .f32) transposes_S32x32_S32x32_1_0) bitsLt_bf16_f32 : S32x32.Idx → Ideal .bf16) := by
    show StableHlo.after hostOps0 (fun b => m (c, b)) (Proc.devRef .tc main_v6) = _
    after_results <;> rfl
  rw [h, truncf_apply]
  exact transpose_ix2_apply (a := 32) (b := 32) _ transposes_S32x32_S32x32_1_0 o k

/-- The third weight matrix, likewise. -/
theorem v8_apply (c : Dev nD) (j : Fin 2) (k : Fin 32) :
    (V m c main_v8 : S2x32.Idx → Ideal .bf16) (ix2 j k) = ((m ((c : Thread nD τ).loc main_arg9)) : S32x2.Idx → Ideal .f32) (ix2 k j) := by
  have h : (V m c main_v8 : S2x32.Idx → Ideal .bf16) = (truncf (F := Ideal) .bf16 (transpose S2x32 [1, 0] ((m ((c : Thread nD τ).loc main_arg9)) : S32x2.Idx → Ideal .f32) transposes_S32x2_S2x32_1_0) bitsLt_bf16_f32 : S2x32.Idx → Ideal .bf16) := by
    show StableHlo.after hostOps0 (fun b => m (c, b)) (Proc.devRef .tc main_v8) = _
    after_results <;> rfl
  rw [h, truncf_apply]
  exact transpose_ix2_apply (a := 32) (b := 2) _ transposes_S32x2_S2x32_1_0 j k

/-- The first bias column's entry `o`. -/
theorem v9_apply (c : Dev nD) (o : Fin 32) :
    (V m c main_v9 : S32x1.Idx → Ideal .f32) (ix2 o 0) = ((m ((c : Thread nD τ).loc main_arg6)) : S32.Idx → Ideal .f32) (ix1 o) := by
  have h : (V m c main_v9 : S32x1.Idx → Ideal .f32) = shapeCast S32x1 (m ((c : Thread nD τ).loc main_arg6)) shapeCasts_S32_S32x1 := by
    show StableHlo.after hostOps0 (fun b => m (c, b)) (Proc.devRef .tc main_v9) = _
    after_results <;> rfl
  rw [h]
  exact Cert.LibColumn.shapeCast_a_a1_apply (a := 32) _ shapeCasts_S32_S32x1 o 0

/-- The second bias column's entry `o`. -/
theorem v10_apply (c : Dev nD) (o : Fin 32) :
    (V m c main_v10 : S32x1.Idx → Ideal .f32) (ix2 o 0) = ((m ((c : Thread nD τ).loc main_arg8)) : S32.Idx → Ideal .f32) (ix1 o) := by
  have h : (V m c main_v10 : S32x1.Idx → Ideal .f32) = shapeCast S32x1 (m ((c : Thread nD τ).loc main_arg8)) shapeCasts_S32_S32x1 := by
    show StableHlo.after hostOps0 (fun b => m (c, b)) (Proc.devRef .tc main_v10) = _
    after_results <;> rfl
  rw [h]
  exact Cert.LibColumn.shapeCast_a_a1_apply (a := 32) _ shapeCasts_S32_S32x1 o 0

/-- The third bias column's entry `j`. -/
theorem v11_apply (c : Dev nD) (j : Fin 2) :
    (V m c main_v11 : S2x1.Idx → Ideal .f32) (ix2 j 0) = ((m ((c : Thread nD τ).loc main_arg10)) : S2.Idx → Ideal .f32) (ix1 j) := by
  have h : (V m c main_v11 : S2x1.Idx → Ideal .f32) = shapeCast S2x1 (m ((c : Thread nD τ).loc main_arg10)) shapeCasts_S2_S2x1 := by
    show StableHlo.after hostOps0 (fun b => m (c, b)) (Proc.devRef .tc main_v11) = _
    after_results <;> rfl
  rw [h]
  exact Cert.LibColumn.shapeCast_a_a1_apply (a := 2) _ shapeCasts_S2_S2x1 j 0

end Cert.KernelIdeal.EdgeArrays

end
-- ==== Proof.EdgeRun.lean ====
/-
  The kernel program's run, with its result read.

  After the region the (feature, edge) array is transposed back to (edge, feature). Entry `(e, j)` of the program's
  result is therefore entry `(j, e)` of the region's array, the edge update of lane `e` at row `j`; and lane `e` of the
  operand arrays holds edge `e`'s own argument entries, the weights read transposed back. So the result is the
  specification's array of the arguments, and the arguments end unchanged.
-/
import proofs.«153126_j63668595196291_2_alg».proof.Proof.EdgeBlocks
import proofs.«153126_j63668595196291_2_alg».proof.Proof.EdgeArrays
import Idealize.ShloMosaic.Lib.ValueLayout

set_option maxRecDepth 16384

noncomputable section

namespace Cert.KernelIdeal.EdgeRun

open Idealize.ShloMosaic Idealize.ShloMosaic.TcCoe Idealize.ShloMosaic.Tactic Idealize.SL.Sem Idealize.ShloMosaic.ValueIdx
open Idealize.ShloMosaic.StableHlo
open Idealize.ShloMosaic.Pipeline (Dat)
open Cert.KernelIdeal Cert.KernelIdeal.Gen Cert.EdgeSpec Cert.KernelIdeal.EdgeBlocks Cert.KernelIdeal.EdgeArrays

variable (m : (ℓ : Loc nD τ sig) → Buf (Elt Ideal) ℓ) (ρ : Dev nD → PrngReg)

/-- The region's array at row `j`, lane `e` is the specification's array at `(e, j)`. -/
theorem arr_apply (c : Dev nD) (j : Fin 2) (e : Fin 8000000) :
    arrFn (V m c main_v0) (V m c main_v1) (V m c main_v2) (V m c main_v4) (V m c main_v9) (V m c main_v6) (V m c main_v10) (V m c main_v8) (V m c main_v11) (ix2 j e) = result (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix2 e j) := by
  rw [arrFn_at (V m c main_v0) (V m c main_v1) (V m c main_v2) (V m c main_v4) (V m c main_v9) (V m c main_v6) (V m c main_v10) (V m c main_v8) (V m c main_v11) (ix2 j e) j e rfl rfl, result_apply, v0_apply, v1_apply,
    show (fun k => V m c main_v2 (ix2 k e)) = fun k => ((m ((c.tc : Thread nD τ).loc main_arg2)) : S8000000x2.Idx → Ideal .f32) (ix2 e k) from funext fun k => v2_apply m c k e,
    show (fun k o => V m c main_v4 (ix2 o k)) = fun k o => ((m ((c.tc : Thread nD τ).loc main_arg5)) : S4x32.Idx → Ideal .f32) (ix2 k o) from funext fun k => funext fun o => v4_apply m c o k,
    show (fun o => V m c main_v9 (ix2 o 0)) = fun o => ((m ((c.tc : Thread nD τ).loc main_arg6)) : S32.Idx → Ideal .f32) (ix1 o) from funext fun o => v9_apply m c o,
    show (fun k o => V m c main_v6 (ix2 o k)) = fun k o => ((m ((c.tc : Thread nD τ).loc main_arg7)) : S32x32.Idx → Ideal .f32) (ix2 k o) from funext fun k => funext fun o => v6_apply m c o k,
    show (fun o => V m c main_v10 (ix2 o 0)) = fun o => ((m ((c.tc : Thread nD τ).loc main_arg8)) : S32.Idx → Ideal .f32) (ix1 o) from funext fun o => v10_apply m c o,
    show (fun k o => V m c main_v8 (ix2 o k)) = fun k o => ((m ((c.tc : Thread nD τ).loc main_arg9)) : S32x2.Idx → Ideal .f32) (ix2 k o) from funext fun k => funext fun o => v8_apply m c o k,
    show (fun o => V m c main_v11 (ix2 o 0)) = fun o => ((m ((c.tc : Thread nD τ).loc main_arg10)) : S2.Idx → Ideal .f32) (ix1 o) from funext fun o => v11_apply m c o]

/-- The program's result after the final transpose. -/
theorem tail_eq (c : Dev nD) :
    (Pipeline.afterTail₀ cfgs (dats m) 0 (V0 m) [hostOps1] c main_v13 : S8000000x2.Idx → Ideal .f32) = result (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.devRef .tc main_v12)
      = arrFn (V m c main_v0) (V m c main_v1) (V m c main_v2) (V m c main_v4) (V m c main_v9) (V m c main_v6) (V m c main_v10) (V m c main_v8) (V m c main_v11) :=
    (Pipeline.withArrays_arr spec0 launch0.win.arr_inj c _ _ 9).trans (final m c)
  rw [hw]
  funext i
  obtain ⟨e, j, rfl⟩ : ∃ (e : Fin 8000000) (j : Fin 2), i = ix2 e j := ⟨i 0, i 1, eq_ix2 i⟩
  rw [transpose_ix2_apply (a := 2) (b := 8000000) _ transposes_S2x8000000_S8000000x2_1_0 e j]
  exact arr_apply m c j e

/-- THE RUN, READ: every weakly fair execution terminates with the result array at the specification's array of the
    arguments, and the arguments unchanged. -/
theorem run : θ_run defs (onTc (τ := τ) (main (F := Ideal))) ⟨m, fun _ => 0, ρ⟩ (fun r => ∀ c : Dev nD,
      r.2.mem ((c.tc : Thread nD τ).loc main_v13) = result (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.EdgeRun

end
-- ==== Proof.EdgeRef.lean ====
/-
  The reference's result, entry by entry, is the edge update of `EdgeSpec.result`.

  Row `e` of the reference depends on row `e` of its row-major operands only: the norm is the root of the row's two
  squares (the sum starts from the float zero, which adds nothing), the feature row is the concatenation
  (diff, a₀, a₁, norm) along the feature axis, each layer is a product over the feature axis plus a bias row spread over
  the edges, and relu compares with a zero array. Column `k` of the concatenation falls in the piece that the column
  ranges 0 | 1–2 | 3 name.
-/
import proofs.«153126_j63668595196291_2_alg».proof.Proof.Gen.ReferenceIdeal.Read
import proofs.«153126_j63668595196291_2_alg».proof.Proof.EdgeSpec
import Idealize.ShloMosaic.Lib.Pipeline.Value
import Idealize.ShloMosaic.Lib.ValueIdx
import Idealize.ShloMosaic.PureOps.Ideal.Laws

noncomputable section

namespace Cert.ReferenceIdeal.EdgeRef

open Idealize.ShloMosaic Idealize.ShloMosaic.ValueIdx Cert.ReferenceIdeal Cert.ReferenceIdeal.Gen Cert.ReferenceIdeal.Read Cert.EdgeSpec

/-- Two rank-2 indices with the same two coordinates are equal. -/
local macro "idx2" : tactic => `(tactic| (funext a; apply Fin.ext; match a with | ⟨0, _⟩ => rfl | ⟨1, _⟩ => rfl))
/-- Two rank-1 indices with the same coordinate are equal. -/
local macro "idx1" : tactic => `(tactic| (funext a; apply Fin.ext; match a with | ⟨0, _⟩ => rfl))

/-- The endpoint difference of row `e`. -/
theorem diff_ref (x0 x1 : (⟨S8000000x1, .f32⟩ : BufTy).Contents (Elt Ideal)) (x2 : (⟨S8000000x2, .f32⟩ : BufTy).Contents (Elt Ideal)) (e : Fin 8000000) :
    val_main_v4 (F := Ideal) x0 x1 (ix2 e 0) = x0 (ix2 e 0) - x1 (ix2 e 0) := by
  rw [val_main_v4_apply, Ideal.subf_def]

/-- The norm of row `e`. -/
theorem norm_ref (x2 : (⟨S8000000x2, .f32⟩ : BufTy).Contents (Elt Ideal)) (e : Fin 8000000) :
    val_main_v3 (F := Ideal) x2 (ix2 e 0) = nrm (fun k => x2 (ix2 e k)) := by
  rw [val_main_v3_apply, val_main_v2_apply, val_main_v1_apply, Ideal.hostUnary_sqrt_def, val_main_cst_apply,
    Ideal.ofBits_def, Ideal.ofBits_zero_f32, zero_add]
  unfold nrm
  refine congrArg Ideal.sqrt (Finset.sum_congr rfl fun k _ => ?_)
  rw [val_main_v0_apply, Ideal.mulf_def, show idx_main_v1 (idx_main_v2 (ix2 e 0)) k = ix2 e k by idx2]

/-- The three column groups the feature array joins. -/
abbrev cols (x0 x1 : (⟨S8000000x1, .f32⟩ : BufTy).Contents (Elt Ideal)) (x2 : (⟨S8000000x2, .f32⟩ : BufTy).Contents (Elt Ideal)) : List ((s : Shape) × (s.Idx → Ideal .f32)) :=
  [⟨S8000000x1, val_main_v4 (F := Ideal) x0 x1⟩, ⟨S8000000x2, x2⟩, ⟨S8000000x1, val_main_v3 (F := Ideal) x2⟩]

/-- The feature row of row `e`, column by column. -/
theorem feat_ref (x0 x1 : (⟨S8000000x1, .f32⟩ : BufTy).Contents (Elt Ideal)) (x2 : (⟨S8000000x2, .f32⟩ : BufTy).Contents (Elt Ideal)) (e : Fin 8000000) (k : Fin 4) :
    val_main_v9 (F := Ideal) x0 x1 x2 (ix2 e k) = feat (x0 (ix2 e 0) - x1 (ix2 e 0)) (fun k => x2 (ix2 e k)) k := by
  unfold val_main_v9 feat
  match k with
  | ⟨0, _⟩ =>
    exact (concatenate_apply_piece (1 : Fin S8000000x4.rank) (cols x0 x1 x2) concatenates_S8000000x1_S8000000x2_S8000000x1_S8000000x4_d1 (ix2 e _) 0
      (by show (0 : ℕ) < 3; omega) S8000000x1 (val_main_v4 (F := Ideal) x0 x1) rfl rfl 0 rfl (ix2 e 0)
      (fun b hb => by match b with | ⟨0, _⟩ => rfl | ⟨1, _⟩ => exact absurd rfl hb) rfl).trans (diff_ref x0 x1 x2 e)
  | ⟨1, _⟩ =>
    exact concatenate_apply_piece (1 : Fin S8000000x4.rank) (cols x0 x1 x2) concatenates_S8000000x1_S8000000x2_S8000000x1_S8000000x4_d1 (ix2 e _) 1
      (by show (1 : ℕ) < 3; omega) S8000000x2 x2 rfl rfl 1 rfl (ix2 e 0)
      (fun b hb => by match b with | ⟨0, _⟩ => rfl | ⟨1, _⟩ => exact absurd rfl hb) rfl
  | ⟨2, _⟩ =>
    exact concatenate_apply_piece (1 : Fin S8000000x4.rank) (cols x0 x1 x2) concatenates_S8000000x1_S8000000x2_S8000000x1_S8000000x4_d1 (ix2 e _) 1
      (by show (1 : ℕ) < 3; omega) S8000000x2 x2 rfl rfl 1 rfl (ix2 e 1)
      (fun b hb => by match b with | ⟨0, _⟩ => rfl | ⟨1, _⟩ => exact absurd rfl hb) rfl
  | ⟨3, _⟩ =>
    exact (concatenate_apply_piece (1 : Fin S8000000x4.rank) (cols x0 x1 x2) concatenates_S8000000x1_S8000000x2_S8000000x1_S8000000x4_d1 (ix2 e _) 2
      (by show (2 : ℕ) < 3; omega) S8000000x1 (val_main_v3 (F := Ideal) x2) rfl rfl 3 rfl (ix2 e 0)
      (fun b hb => by match b with | ⟨0, _⟩ => rfl | ⟨1, _⟩ => exact absurd rfl hb) rfl).trans (norm_ref x2 e)

/-- The first hidden row of row `e`. -/
theorem h1_ref (x0 x1 : (⟨S8000000x1, .f32⟩ : BufTy).Contents (Elt Ideal)) (x2 : (⟨S8000000x2, .f32⟩ : BufTy).Contents (Elt Ideal)) (x5 : (⟨S4x32, .f32⟩ : BufTy).Contents (Elt Ideal)) (x6 : (⟨S32, .f32⟩ : BufTy).Contents (Elt Ideal)) (e : Fin 8000000) (o : Fin 32) :
    val_main_v14 (F := Ideal) x0 x1 x2 x5 x6 (ix2 e o)
      = relu (layer (feat (x0 (ix2 e 0) - x1 (ix2 e 0)) (fun k => x2 (ix2 e k))) (fun k o => x5 (ix2 k o)) (fun o => x6 (ix1 o)) o) := by
  rw [val_main_v14_apply, val_main_v13_apply, val_main_v10_apply, val_main_v12_apply, val_main_v11_apply,
    val_main_call0_v0_apply, val_main_call0_cst_apply, Ideal.maximumf_def, Ideal.addf_def, Ideal.ofBits_def]
  have hs : (∑ k : Fin 4, val_main_v9 (F := Ideal) x0 x1 x2 (lidx_main_v10 (ix2 e o) k) * x5 (ridx_main_v10 (ix2 e o) k))
      = ∑ k : Fin 4, feat (x0 (ix2 e 0) - x1 (ix2 e 0)) (fun k => x2 (ix2 e k)) k * x5 (ix2 k o) :=
    Finset.sum_congr rfl fun k _ => by
      rw [show lidx_main_v10 (ix2 e o) k = ix2 e k by idx2, show ridx_main_v10 (ix2 e o) k = ix2 k o by idx2, feat_ref]
  rw [hs, show idx_main_v11 (idx_main_v12 (ix2 e o)) = ix1 o by idx1]
  rfl

/-- The second hidden row of row `e`. -/
theorem h2_ref (x0 x1 : (⟨S8000000x1, .f32⟩ : BufTy).Contents (Elt Ideal)) (x2 : (⟨S8000000x2, .f32⟩ : BufTy).Contents (Elt Ideal)) (x5 : (⟨S4x32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (e : Fin 8000000) (o : Fin 32) :
    val_main_v19 (F := Ideal) x0 x1 x2 x5 x6 x7 x8 (ix2 e o)
      = relu (layer (fun k => relu (layer (feat (x0 (ix2 e 0) - x1 (ix2 e 0)) (fun k => x2 (ix2 e k))) (fun k o => x5 (ix2 k o)) (fun o => x6 (ix1 o)) k))
          (fun k o => x7 (ix2 k o)) (fun o => x8 (ix1 o)) o) := by
  rw [val_main_v19_apply, val_main_v18_apply, val_main_v15_apply, val_main_v17_apply, val_main_v16_apply,
    val_main_call1_v0_apply, val_main_call1_cst_apply, Ideal.maximumf_def, Ideal.addf_def, Ideal.ofBits_def]
  have hs : (∑ k : Fin 32, val_main_v14 (F := Ideal) x0 x1 x2 x5 x6 (lidx_main_v15 (ix2 e o) k) * x7 (ridx_main_v15 (ix2 e o) k))
      = ∑ k : Fin 32, relu (layer (feat (x0 (ix2 e 0) - x1 (ix2 e 0)) (fun k => x2 (ix2 e k))) (fun k o => x5 (ix2 k o)) (fun o => x6 (ix1 o)) k) * x7 (ix2 k o) :=
    Finset.sum_congr rfl fun k _ => by
      rw [show lidx_main_v15 (ix2 e o) k = ix2 e k by idx2, show ridx_main_v15 (ix2 e o) k = ix2 k o by idx2, h1_ref]
  rw [hs, show idx_main_v16 (idx_main_v17 (ix2 e o)) = ix1 o by idx1]
  rfl

/-- The coefficient row of row `e`. -/
theorem coef_ref (x0 x1 : (⟨S8000000x1, .f32⟩ : BufTy).Contents (Elt Ideal)) (x2 : (⟨S8000000x2, .f32⟩ : BufTy).Contents (Elt Ideal)) (x5 : (⟨S4x32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32x2, .f32⟩ : BufTy).Contents (Elt Ideal)) (x10 : (⟨S2, .f32⟩ : BufTy).Contents (Elt Ideal)) (e : Fin 8000000) (j : Fin 2) :
    val_main_v23 (F := Ideal) x0 x1 x2 x5 x6 x7 x8 x9 x10 (ix2 e j)
      = layer (fun k => relu (layer (fun k => relu (layer (feat (x0 (ix2 e 0) - x1 (ix2 e 0)) (fun k => x2 (ix2 e k))) (fun k o => x5 (ix2 k o)) (fun o => x6 (ix1 o)) k))
          (fun k o => x7 (ix2 k o)) (fun o => x8 (ix1 o)) k)) (fun k o => x9 (ix2 k o)) (fun o => x10 (ix1 o)) j := by
  rw [val_main_v23_apply, val_main_v20_apply, val_main_v22_apply, val_main_v21_apply, Ideal.addf_def]
  have hs : (∑ k : Fin 32, val_main_v19 (F := Ideal) x0 x1 x2 x5 x6 x7 x8 (lidx_main_v20 (ix2 e j) k) * x9 (ridx_main_v20 (ix2 e j) k))
      = ∑ k : Fin 32, relu (layer (fun k => relu (layer (feat (x0 (ix2 e 0) - x1 (ix2 e 0)) (fun k => x2 (ix2 e k))) (fun k o => x5 (ix2 k o)) (fun o => x6 (ix1 o)) k))
          (fun k o => x7 (ix2 k o)) (fun o => x8 (ix1 o)) k) * x9 (ix2 k j) :=
    Finset.sum_congr rfl fun k _ => by
      rw [show lidx_main_v20 (ix2 e j) k = ix2 e k by idx2, show ridx_main_v20 (ix2 e j) k = ix2 k j by idx2, h2_ref]
  rw [hs, show idx_main_v21 (idx_main_v22 (ix2 e j)) = ix1 j by idx1]
  rfl

/-- The scaled attributes of row `e`. -/
theorem scaled_ref (x0 x1 : (⟨S8000000x1, .f32⟩ : BufTy).Contents (Elt Ideal)) (x2 : (⟨S8000000x2, .f32⟩ : BufTy).Contents (Elt Ideal)) (e : Fin 8000000) (j : Fin 2) :
    val_main_v8 (F := Ideal) x0 x1 x2 (ix2 e j)
      = Ideal.div (x0 (ix2 e 0) - x1 (ix2 e 0)) (nrm (fun k => x2 (ix2 e k)) * nrm (fun k => x2 (ix2 e k))) * x2 (ix2 e j) := by
  rw [val_main_v8_apply, val_main_v7_apply, val_main_v6_apply, val_main_v5_apply,
    show idx_main_v7 (ix2 e j) = ix2 e (0 : Fin 1) by idx2, diff_ref x0 x1 x2 e, norm_ref x2 e,
    Ideal.mulf_def, Ideal.hostDivf_def, Ideal.mulf_def]

/-- THE REFERENCE'S RESULT is the specification's array. -/
theorem ref_eq (x0 x1 : (⟨S8000000x1, .f32⟩ : BufTy).Contents (Elt Ideal)) (x2 : (⟨S8000000x2, .f32⟩ : BufTy).Contents (Elt Ideal)) (x5 : (⟨S4x32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32x2, .f32⟩ : BufTy).Contents (Elt Ideal)) (x10 : (⟨S2, .f32⟩ : BufTy).Contents (Elt Ideal)) :
    val_main_v24 (F := Ideal) x0 x1 x2 x5 x6 x7 x8 x9 x10 = result x0 x1 x2 x5 x6 x7 x8 x9 x10 := by
  funext i
  obtain ⟨e, j, rfl⟩ : ∃ (e : Fin 8000000) (j : Fin 2), i = ix2 e j := ⟨i 0, i 1, eq_ix2 i⟩
  rw [val_main_v24_apply, scaled_ref, coef_ref, result_apply, Ideal.mulf_def]
  rfl

end Cert.ReferenceIdeal.EdgeRef

end
-- ==== Proof.lean ====
/-
  The claim: the Pallas edge-update kernel and its jnp reference compute the same array on the extended reals.

  Both programs' results are the one array `EdgeSpec.result` of the argument arrays: for edge `e` and output feature `j`,
  (diff / (n · n) · a_j) · coeff_j with diff = src − dest, n the norm of the edge's two attributes, and coeff the
  three-layer network (4 → 32 → 32 → 2, relu between) of the features (diff, a₀, a₁, n). The kernel computes it tile by
  tile on transposed operands with transposed weights; the two sides' products differ only by the order of the two
  factors in each term, so no finiteness of the inputs is needed and the precondition is never opened.
  The three frames are the generated ones (the reference's is its generated run with the result dropped); the
  idealization rewrote nothing, so there is nothing to preserve.
-/
import proofs.«153126_j63668595196291_2_alg».proof.Defs
import proofs.«153126_j63668595196291_2_alg».proof.Proof.Gen.Kernel
import proofs.«153126_j63668595196291_2_alg».proof.Proof.Gen.Kernel.Skeleton
import proofs.«153126_j63668595196291_2_alg».proof.Proof.Gen.Kernel.Launch
import proofs.«153126_j63668595196291_2_alg».proof.Proof.Gen.Kernel.Points
import proofs.«153126_j63668595196291_2_alg».proof.Proof.Gen.Kernel.Frame
import proofs.«153126_j63668595196291_2_alg».proof.Proof.Gen.KernelIdeal
import proofs.«153126_j63668595196291_2_alg».proof.Proof.Gen.KernelIdeal.Skeleton
import proofs.«153126_j63668595196291_2_alg».proof.Proof.Gen.KernelIdeal.Launch
import proofs.«153126_j63668595196291_2_alg».proof.Proof.Gen.KernelIdeal.Points
import proofs.«153126_j63668595196291_2_alg».proof.Proof.Gen.KernelIdeal.Frame
import proofs.«153126_j63668595196291_2_alg».proof.Proof.Gen.ReferenceIdeal
import proofs.«153126_j63668595196291_2_alg».proof.Proof.Gen.ReferenceIdeal.Run
import proofs.«153126_j63668595196291_2_alg».proof.Proof.Gen.ReferenceIdeal.Read
import proofs.«153126_j63668595196291_2_alg».proof.Proof.Gen.Pre_finite_inputs
import proofs.«153126_j63668595196291_2_alg».proof.Proof.EdgeRun
import proofs.«153126_j63668595196291_2_alg».proof.Proof.EdgeRef
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at `EdgeSpec.result` of arguments that agree. -/
theorem algebraic : Cert.algebraic_KernelIdeal_ReferenceIdeal := by
  intro m ρ m' ρ' _ hagree
  refine ⟨fun c => Cert.EdgeSpec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.EdgeRun.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7, a8, a9, a10⟩ := hagree c
  rw [(h c).1, Cert.ReferenceIdeal.Read.val_main_v24_eq, Cert.ReferenceIdeal.EdgeRef.ref_eq, a0, a1, a2, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
